-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x40 .f32) (main_arg11 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S3x128x128 .f32) (main_arg7 : FVec F S3x128 .f32) (main_arg8 : FVec F S128x128 .f32) (main_arg9 : FVec F S128 .f32) (main_arg10 : FVec F S128x40 .f32) (main_arg11 : FVec F S40 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x600000 32) (main_arg2 : FVec F S128x256 .f32) (main_arg3 : FVec F S256 .f32) (main_arg4 : FVec F S256x128 .f32) (main_arg5 : FVec F S128 .f32) (main_arg6 : FVec F S3x128x128 .f32) (main_arg7 : FVec F S3x128 .f32) (main_arg8 : FVec F S128x128 .f32) (main_arg9 : FVec F S128 .f32) (main_arg10 : FVec F S128x40 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S1x256 : Shape := ⟨2, ![1, 256]⟩
abbrev S1x128 : Shape := ⟨2, ![1, 128]⟩
abbrev S4000x128 : Shape := ⟨2, ![4000, 128]⟩
abbrev S4000x256 : Shape := ⟨2, ![4000, 256]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S1x40 : Shape := ⟨2, ![1, 40]⟩
abbrev S100000x40 : Shape := ⟨2, ![100000, 40]⟩
abbrev S4000x40 : Shape := ⟨2, ![4000, 40]⟩
abbrev S4000 : Shape := ⟨1, ![4000]⟩
abbrev S4000x1 : Shape := ⟨2, ![4000, 1]⟩

abbrev nBuf : Space → Nat
  | .hbm => 81
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S3x128x128, .f32⟩
  | .hbm, ⟨7, _⟩ => ⟨S3x128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S1x256, .f32⟩
  | .hbm, ⟨17, _⟩ => ⟨S1x128, .f32⟩
  | .hbm, ⟨18, _⟩ => ⟨S100000x128, .bf16⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .bf16⟩
  | .hbm, ⟨28, _⟩ => ⟨S600000x128, .f32⟩
  | .hbm, ⟨29, _⟩ => ⟨S_, .f32⟩
  | .hbm, ⟨30, _⟩ => ⟨S100000x128, .f32⟩
  | .hbm, ⟨31, _⟩ => ⟨S600000x1, .i32⟩
  | .hbm, ⟨32, _⟩ => ⟨S100000x128, .f32⟩
  | .hbm, ⟨33, _⟩ => ⟨S1x128x128, .f32⟩
  | .hbm, ⟨34, _⟩ => ⟨S128x128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S100000x128, .bf16⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .bf16⟩
  | .hbm, ⟨48, _⟩ => ⟨S600000x128, .f32⟩
  | .hbm, ⟨49, _⟩ => ⟨S_, .f32⟩
  | .hbm, ⟨50, _⟩ => ⟨S100000x128, .f32⟩
  | .hbm, ⟨51, _⟩ => ⟨S600000x1, .i32⟩
  | .hbm, ⟨52, _⟩ => ⟨S100000x128, .f32⟩
  | .hbm, ⟨53, _⟩ => ⟨S1x128x128, .f32⟩
  | .hbm, ⟨54, _⟩ => ⟨S128x128, .f32⟩
  | .hbm, ⟨55, _⟩ => ⟨S1x128, .f32⟩
  | .hbm, ⟨56, _⟩ => ⟨S128, .f32⟩
  | .hbm, ⟨57, _⟩ => ⟨S1x128, .f32⟩
  | .hbm, ⟨58, _⟩ => ⟨S100000x128, .bf16⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x128, .bf16⟩
  | .hbm, ⟨68, _⟩ => ⟨S600000x128, .f32⟩
  | .hbm, ⟨69, _⟩ => ⟨S_, .f32⟩
  | .hbm, ⟨70, _⟩ => ⟨S100000x128, .f32⟩
  | .hbm, ⟨71, _⟩ => ⟨S600000x1, .i32⟩
  | .hbm, ⟨72, _⟩ => ⟨S100000x128, .f32⟩
  | .hbm, ⟨73, _⟩ => ⟨S1x128x128, .f32⟩
  | .hbm, ⟨74, _⟩ => ⟨S128x128, .f32⟩
  | .hbm, ⟨75, _⟩ => ⟨S1x128, .f32⟩
  | .hbm, ⟨76, _⟩ => ⟨S128, .f32⟩
  | .hbm, ⟨77, _⟩ => ⟨S1x128, .f32⟩
  | .hbm, ⟨78, _⟩ => ⟨S1x128, .f32⟩
  | .hbm, ⟨79, _⟩ => ⟨S1x40, .f32⟩
  | .hbm, ⟨80, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S128x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S4000x128, .bf16⟩
  | .local _ .vmem, ⟨7, _⟩ => ⟨S4000x128, .bf16⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S1x128, .f32⟩
  | .local _ .vmem, ⟨12, _⟩ => ⟨S4000x128, .bf16⟩
  | .local _ .vmem, ⟨13, _⟩ => ⟨S4000x128, .bf16⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S1x128, .f32⟩
  | .local _ .vmem, ⟨18, _⟩ => ⟨S4000x128, .bf16⟩
  | .local _ .vmem, ⟨19, _⟩ => ⟨S4000x128, .bf16⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x40, .f32⟩
  | .local _ .vmem, ⟨27, _⟩ => ⟨S1x40, .f32⟩
  | .local _ .vmem, ⟨28, _⟩ => ⟨S4000x40, .f32⟩
  | .local _ .vmem, ⟨29, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_4 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem7_0 : DmaSem sig := 28
abbrev cc3_sem7_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x40 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x40 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x40 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .bf16 = 32 ∨ (Rect.block (s := S100000x128) S4000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .bf16 = 32 ∨ (Rect.block (s := S100000x128) S4000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .bf16 = 32 ∨ (Rect.block (s := S100000x128) S4000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x40.size a ≤ S128x40.size a
  hwx3_5 : ∀ i : grid3.Coords, EltTy.bits .f32 = 32 ∨ (Rect.block (s := S128x40) S128x40.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x40.size a ≤ S1x40.size a
  hwx3_6 : ∀ i : grid3.Coords, EltTy.bits .f32 = 32 ∨ (Rect.block (s := S1x40) S1x40.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x40.size a ≤ S100000x40.size a
  hwx3_7 : ∀ i : grid3.Coords, EltTy.bits .f32 = 32 ∨ (Rect.block (s := S100000x40) S4000x40.size (cc3_transform_7 i) (hinb3_7 i)).WholeWords (EltTy.packing .f32)

variable [Facts₀]

def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S128x40.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v58) S1x40.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v59) S4000x40.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S100000x256 : Shape := ⟨2, ![100000, 256]⟩
abbrev S1x256 : Shape := ⟨2, ![1, 256]⟩
abbrev S_ : Shape := ⟨0, ![]⟩
abbrev S1x128 : Shape := ⟨2, ![1, 128]⟩
abbrev S1x128x128 : Shape := ⟨3, ![1, 128, 128]⟩
abbrev S600000x1 : Shape := ⟨2, ![600000, 1]⟩
abbrev S600000x128 : Shape := ⟨2, ![600000, 128]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S3x128x128, .f32⟩
  | .hbm, ⟨7, _⟩ => ⟨S3x128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S100000x256, .f32⟩
  | .hbm, ⟨17, _⟩ => ⟨S1x256, .f32⟩
  | .hbm, ⟨18, _⟩ => ⟨S100000x256, .f32⟩
  | .hbm, ⟨19, _⟩ => ⟨S100000x256, .f32⟩
  | .hbm, ⟨20, _⟩ => ⟨S_, .f32⟩
  | .hbm, ⟨21, _⟩ => ⟨S100000x256, .f32⟩
  | .hbm, ⟨22, _⟩ => ⟨S100000x256, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S1x128x128, .f32⟩
  | .hbm, ⟨28, _⟩ => ⟨S128x128, .f32⟩
  | .hbm, ⟨29, _⟩ => ⟨S100000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S100000x128, .f32⟩
  | .hbm, ⟨41, _⟩ => ⟨S600000x1, .i32⟩
  | .hbm, ⟨42, _⟩ => ⟨S100000x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S1x128x128, .f32⟩
  | .hbm, ⟨52, _⟩ => ⟨S128x128, .f32⟩
  | .hbm, ⟨53, _⟩ => ⟨S100000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S_, .f32⟩
  | .hbm, ⟨64, _⟩ => ⟨S100000x128, .f32⟩
  | .hbm, ⟨65, _⟩ => ⟨S600000x1, .i32⟩
  | .hbm, ⟨66, _⟩ => ⟨S100000x128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S1x128x128, .f32⟩
  | .hbm, ⟨76, _⟩ => ⟨S128x128, .f32⟩
  | .hbm, ⟨77, _⟩ => ⟨S100000x128, .f32⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x128, .f32⟩
  | .hbm, ⟨87, _⟩ => ⟨S_, .f32⟩
  | .hbm, ⟨88, _⟩ => ⟨S100000x128, .f32⟩
  | .hbm, ⟨89, _⟩ => ⟨S600000x1, .i32⟩
  | .hbm, ⟨90, _⟩ => ⟨S100000x128, .f32⟩
  | .hbm, ⟨91, _⟩ => ⟨S1x128, .f32⟩
  | .hbm, ⟨92, _⟩ => ⟨S128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S100000x128, .f32⟩
  | .hbm, ⟨105, _⟩ => ⟨S100000x128, .f32⟩
  | .hbm, ⟨106, _⟩ => ⟨S100000x40, .f32⟩
  | .hbm, ⟨107, _⟩ => ⟨S1x40, .f32⟩
  | .hbm, ⟨108, _⟩ => ⟨S100000x40, .f32⟩
  | .hbm, ⟨109, _⟩ => ⟨S100000x40, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S100000, .f32⟩
  | .hbm, ⟨114, _⟩ => ⟨S100000, .f32⟩
  | .hbm, ⟨115, _⟩ => ⟨S100000x1, .f32⟩
  | .hbm, ⟨116, _⟩ => ⟨S100000x40, .f32⟩
  | .hbm, ⟨117, _⟩ => ⟨S100000x40, .f32⟩
  | .hbm, ⟨118, _⟩ => ⟨S100000x40, .f32⟩
  | .hbm, ⟨119, _⟩ => ⟨S_, .f32⟩
  | .hbm, ⟨120, _⟩ => ⟨S100000, .f32⟩
  | .hbm, ⟨121, _⟩ => ⟨S100000x1, .f32⟩
  | .hbm, ⟨122, _⟩ => ⟨S100000x1, .f32⟩
  | .hbm, ⟨123, _⟩ => ⟨S100000x40, .f32⟩
  | .hbm, ⟨124, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_cst : Ref sig .tc := ⟨.hbm, 48, rfl⟩
abbrev main_call1_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_1 : Ref sig .tc := ⟨.hbm, 54, rfl⟩
abbrev main_v35 : Ref sig .tc := ⟨.hbm, 55, rfl⟩
abbrev main_v36 : Ref sig .tc := ⟨.hbm, 56, rfl⟩
abbrev main_c_2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call2_cst : Ref sig .tc := ⟨.hbm, 72, rfl⟩
abbrev main_call2_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_4 : Ref sig .tc := ⟨.hbm, 78, rfl⟩
abbrev main_v54 : Ref sig .tc := ⟨.hbm, 79, rfl⟩
abbrev main_v55 : Ref sig .tc := ⟨.hbm, 80, rfl⟩
abbrev main_c_5 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_6 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call3_cst : Ref sig .tc := ⟨.hbm, 96, rfl⟩
abbrev main_call3_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call4_cst : Ref sig .tc := ⟨.hbm, 103, rfl⟩
abbrev main_call4_v0 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_call5_cst : Ref sig .tc := ⟨.hbm, 110, rfl⟩
abbrev main_call5_v0 : Ref sig .tc := ⟨.hbm, 111, rfl⟩
abbrev main_call5_cst_0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_v5 : Ref sig .tc := ⟨.hbm, 117, rfl⟩
abbrev main_call5_v6 : Ref sig .tc := ⟨.hbm, 118, rfl⟩
abbrev main_call5_cst_1 : Ref sig .tc := ⟨.hbm, 119, rfl⟩
abbrev main_call5_v7 : Ref sig .tc := ⟨.hbm, 120, rfl⟩
abbrev main_call5_v8 : Ref sig .tc := ⟨.hbm, 121, rfl⟩
abbrev main_call5_v9 : Ref sig .tc := ⟨.hbm, 122, rfl⟩
abbrev main_call5_v10 : Ref sig .tc := ⟨.hbm, 123, rfl⟩
abbrev main_v79 : Ref sig .tc := ⟨.hbm, 124, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x40_S100000x40_1_0_0_1_n_n_wf : DotDims.WF S100000x128 S128x40 S100000x40 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's run, with its result kept.

  @main is four pipelined regions among stretches of host operations. The generated frame proves that every weakly
  fair execution terminates with every unscoped buffer at the contents the fold `W8` names (the launch memory pushed
  through each stretch's operations and each region's write-backs), and then keeps only the argument arrays. The
  value claim needs one buffer more: the result, which is region 3's output array. This is the same run, read at
  that buffer as well; what `W8` holds there is the subject of the modules that follow.
-/
import proofs.«109249_j70978629534135_2_alg».proof.Proof.Gen.KernelIdeal.Frame

set_option maxRecDepth 16384

noncomputable section

namespace Cert.KernelIdeal.Result

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

/-- The result buffer is region 3's output array: what its twenty-five write-backs leave. -/
theorem result_is_region3 (c : Dev nD) :
    W8 m ρ c (Proc.devRef .tc main_v59) = (dat3 (V7 m ρ) c).arrAt 7 cfg3.N :=
  W8_arr m ρ c 7

end Cert.KernelIdeal.Result

end
-- ==== Proof.Layout.lean ====
/-
  Small arrays read at an index.

  Every body of this kernel, and every stage of the reference, is built from the same few operations on
  two-dimensional arrays: a matrix product, a bias row added to every row, a row's maximum and a row's sum kept as a
  column, and that column subtracted from every entry of its row. This module reads each of them at an index
  (row, column), once, at any extents, in the kernel's vocabulary (`tpu.matmul`, `vector.multi_reduction`,
  `vector.broadcast`, `vector.shape_cast`) and in the host's (`dot_general`, `reduce`, `broadcast_in_dim`).
-/
import Idealize.ShloMosaic.Lib.StackMember
import Idealize.ShloMosaic.Lib.ValueLayout
import Idealize.ShloMosaic.Lib.Pipeline.Value
import Idealize.ShloMosaic.PureOps.Ideal.Laws

noncomputable section

open scoped BigOperators

namespace Cert.Gnn

open Idealize.ShloMosaic Idealize.ShloMosaic.ValueIdx

variable {α : Type}

/-! ## Matrix products -/

/-- A `tpu.matmul` of an m×k by a k×n matrix into a zero accumulator, read at (a, b): the sum over the contracted
    coordinate of the products of the entries (the host's `dot_general` of the same operands: the library's
    `dotGeneral_plain_apply`). -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Rows and columns -/

/-- A vector of `a` entries cast to one column, read at (i, u), is entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over the columns of its rows: at (p, c) the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of a vector to one row: at (u, j) entry `j`. -/
theorem bcast_vec_row_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The host's `broadcast_in_dim` of one row over many: at (p, c) the row's entry `c`. -/
theorem bcast_row_rows_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's `broadcast_in_dim` of a vector to one column: at (p, u) entry `p`. -/
theorem bcast_vec_col_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's `broadcast_in_dim` of one column over its rows' columns: at (p, c) the column's entry for row `p`. -/
theorem bcast_col_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of a scalar: the scalar everywhere. -/
theorem bcast_scalar_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 fun ax => ax.elim0

/-! ## A row's maximum and a row's sum -/

/-- The reduced index `p` with column `k` put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- `-∞`'s f32 pattern is the bottom of the extended reals, so it is neutral for `max`. -/
theorem max_negInf (y : EReal) : max (Ideal.ofBits .f32 0xFF800000#32) y = y := by
  simp [Ideal.ofBits, Ideal.ieee]

/-- A row's maximum: the fold of `max` from `-∞` over the row's entries. -/
def rowMax {b : ℕ} (v : Fin b → EReal) : EReal := (Finset.univ : Finset (Fin b)).fold max (Ideal.ofBits .f32 0xFF800000#32) v

/-- The kernel's `vector.multi_reduction <maximumf>` along the columns, at row `p`. -/
theorem multiReduction_max_rows {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p) = rowMax fun k : Fin b => src (ix2 p k) := by
  refine (Ideal.multiReduction_maximumf_single src _ h hφ hacc (ix1 p)).trans ?_
  unfold rowMax
  exact congrArg (fun f => Finset.fold max (Ideal.ofBits .f32 0xFF800000#32) f (Finset.univ : Finset (Fin b)))
    (funext fun k => congrArg src (lift_row h p k))

/-- The kernel's `vector.multi_reduction <add>` along the columns, at row `p`. -/
theorem multiReduction_add_rows {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  exact Finset.sum_congr rfl fun k _ => congrArg src (lift_row h p k)

/-- Each entry less its row's maximum, as a kernel writes it: the lane maximum, kept as a column, broadcast back over
    the row and subtracted. -/
theorem sub_rowMax_apply {a b : ℕ} (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf v (broadcastTo ⟨2, ![a, b]⟩ (shapeCast ⟨2, ![a, 1]⟩ (multiReduction .maximumf [1] ⟨1, ![a]⟩ v 0xFF800000#32 h hφ hacc) hc) hb)
        (ix2 p q)
      = v (ix2 p q) - rowMax fun q' : Fin b => v (ix2 p q') := by
  rw [subf_apply, broadcastTo_a1_ab_apply, shapeCast_a_a1_apply, multiReduction_max_rows]

/-- A row's sum kept as a column, as a kernel writes it. -/
theorem rowSum_col_apply {a b : ℕ} (v : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ q' : Fin b, v (ix2 p q') := by
  rw [shapeCast_a_a1_apply, multiReduction_add_rows]

/-- The host's `reduce` with a maximum body along the columns from `-∞`, at row `p`. -/
theorem hostReduce_max_rows {a b : ℕ} (x : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x (constant (F := Ideal) (⟨0, ![]⟩ : Shape) .f32 0xFF800000#32) h' hu (ix1 p)
      = rowMax fun k : Fin b => x (ix2 p k) := by
  rw [Host.reduce_eq_fold_single FloatOps.maximumf x _ h' h hu]
  unfold rowMax
  exact congrArg (fun f => Finset.fold max (Ideal.ofBits .f32 0xFF800000#32) f (Finset.univ : Finset (Fin b)))
    (funext fun k => congrArg x (lift_row h p k))

/-- The host's float sum along the columns from zero, at row `p`. -/
theorem hostReduceAdd_rows {a b : ℕ} (x : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduceAdd x (constant (F := Ideal) (⟨0, ![]⟩ : Shape) .f32 0x00000000#32) h' hu (ix1 p) = ∑ k : Fin b, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (lift_row h p k)

end Cert.Gnn
-- ==== Proof.Bodies.lean ====
/-
  What each kernel body stores, entry by entry.

  Each of the four bodies loads its blocks whole, computes, and stores one block. Read at (row p, column q) of the
  stored block and at the ideal values — where a change of float format is the identity, a `tpu.matmul` into a zero
  accumulator is the sum of products, and a lane reduction is the row's sum or maximum — the encoder's body is two
  dense layers with a rectifier between them, a round's body is a dense layer and a rectifier, and the last body is
  that followed by the decoder's two dense layers and the log-softmax of the row.
-/
import proofs.«109249_j70978629534135_2_alg».proof.Proof.Gen.KernelIdeal.Skeleton
import proofs.«109249_j70978629534135_2_alg».proof.Proof.Layout

noncomputable section

open scoped BigOperators

namespace Cert.KernelIdeal.Body

open Cert.KernelIdeal Cert.KernelIdeal.Gen Cert.Gnn Idealize.ShloMosaic Idealize.ShloMosaic.ValueIdx

/-! ## The printed dimension numbers are the plain product's -/

theorem dot_128_256 : dot_S4000x128_S128x256_S4000x256_1_0_0_1_n_n = DotDims.plain 4000 128 256 := rfl
theorem dot_256_128 : dot_S4000x256_S256x128_S4000x128_1_0_0_1_n_n = DotDims.plain 4000 256 128 := rfl
theorem dot_128_128 : dot_S4000x128_S128x128_S4000x128_1_0_0_1_n_n = DotDims.plain 4000 128 128 := rfl
theorem dot_128_40 : dot_S4000x128_S128x40_S4000x40_1_0_0_1_n_n = DotDims.plain 4000 128 40 := rfl

/-- The zero a rectifier compares with. -/
theorem zero_word : (FloatOps.ofBits (F := Ideal) .f32 0#32 : EReal) = 0 := Ideal.ofBits_zero_f32

theorem exp_apply {s : Shape} (x : FVec Ideal s .f32) (i : s.Idx) : exp x i = Ideal.exp (x i) := rfl
theorem log_apply {s : Shape} (x : FVec Ideal s .f32) (i : s.Idx) : log x i = Ideal.log (x i) := rfl

/-! ## The encoder's body -/

/-- Entry (p, q) of the encoder's stored block: the second dense layer of the rectified first. -/
theorem encoder_body (x0 : Vec Ideal S4000x128 .f32) (x1 : Vec Ideal S128x256 .f32) (x2 : Vec Ideal S1x256 .f32)
    (x3 : Vec Ideal S256x128 .f32) (x4 : Vec Ideal S1x128 .f32) (p : Fin 4000) (q : Fin 128) :
    k0_pay1 x0 x1 x2 x3 x4 (ix2 p q)
      = (∑ k' : Fin 256, max ((∑ k : Fin 128, x0 (ix2 p k) * x1 (ix2 k k')) + x2 (ix2 (0 : Fin 1) k')) 0 * x3 (ix2 k' q))
        + x4 (ix2 (0 : Fin 1) q) := by
  unfold k0_pay1
  simp only [shapeCast_self, truncf_apply, maximumf_apply, addf_apply, broadcast_apply, dot_128_256, dot_256_128,
    matmul_plain_apply, broadcastTo_1b_ab_apply, zero_word]

/-! ## A round's body -/

/-- Entry (p, q) of a round's stored block: a dense layer of the block's rows, rectified. -/
theorem round_body (x0 : Vec Ideal S4000x128 .f32) (x1 : Vec Ideal S128x128 .f32) (x2 : Vec Ideal S1x128 .f32)
    (p : Fin 4000) (q : Fin 128) :
    k1_pay1 x0 x1 x2 (ix2 p q) = max ((∑ k : Fin 128, x0 (ix2 p k) * x1 (ix2 k q)) + x2 (ix2 (0 : Fin 1) q)) 0 := by
  unfold k1_pay1
  simp only [shapeCast_self, truncf_apply, maximumf_apply, addf_apply, broadcast_apply, dot_128_128,
    matmul_plain_apply, broadcastTo_1b_ab_apply, zero_word]

/-- The second round's body is the first's, letter for letter. -/
theorem round_body' (x0 : Vec Ideal S4000x128 .f32) (x1 : Vec Ideal S128x128 .f32) (x2 : Vec Ideal S1x128 .f32)
    (p : Fin 4000) (q : Fin 128) :
    k2_pay1 x0 x1 x2 (ix2 p q) = max ((∑ k : Fin 128, x0 (ix2 p k) * x1 (ix2 k q)) + x2 (ix2 (0 : Fin 1) q)) 0 :=
  round_body x0 x1 x2 p q

/-! ## The last body: a round, the decoder, the log-softmax -/

/-- The logits at (p, q): the last round's dense layer rectified, then the decoder's two dense layers with a rectifier
    between them. -/
def logitAt (x0 : Vec Ideal S4000x128 .f32) (x1 : Vec Ideal S128x128 .f32) (x2 : Vec Ideal S1x128 .f32)
    (x3 : Vec Ideal S128x128 .f32) (x4 : Vec Ideal S1x128 .f32) (x5 : Vec Ideal S128x40 .f32) (x6 : Vec Ideal S1x40 .f32)
    (p : Fin 4000) (q : Fin 40) : EReal :=
  (∑ k3 : Fin 128,
      max ((∑ k2 : Fin 128, max ((∑ k : Fin 128, x0 (ix2 p k) * x1 (ix2 k k2)) + x2 (ix2 (0 : Fin 1) k2)) 0 * x3 (ix2 k2 k3))
        + x4 (ix2 (0 : Fin 1) k3)) 0 * x5 (ix2 k3 q))
    + x6 (ix2 (0 : Fin 1) q)

/-- The shifted logits the body keeps: each logit less its row's maximum. -/
theorem shifted_body (x0 : Vec Ideal S4000x128 .f32) (x1 : Vec Ideal S128x128 .f32) (x2 : Vec Ideal S1x128 .f32)
    (x3 : Vec Ideal S128x128 .f32) (x4 : Vec Ideal S1x128 .f32) (x5 : Vec Ideal S128x40 .f32) (x6 : Vec Ideal S1x40 .f32)
    (p : Fin 4000) (q : Fin 40) :
    k3_pay2 x0 x1 x2 x3 x4 x5 x6 (ix2 p q)
      = logitAt x0 x1 x2 x3 x4 x5 x6 p q - rowMax fun q' : Fin 40 => logitAt x0 x1 x2 x3 x4 x5 x6 p q' := by
  unfold k3_pay2
  refine (sub_rowMax_apply _ _ _ _ _ _ p q).trans ?_
  unfold logitAt
  simp only [shapeCast_self, truncf_apply, maximumf_apply, addf_apply, broadcast_apply, dot_128_128, dot_128_40,
    matmul_plain_apply, broadcastTo_1b_ab_apply, zero_word]

/-- The row's sum of exponentials, kept as a column. -/
theorem sumexp_body (x0 : Vec Ideal S4000x128 .f32) (x1 : Vec Ideal S128x128 .f32) (x2 : Vec Ideal S1x128 .f32)
    (x3 : Vec Ideal S128x128 .f32) (x4 : Vec Ideal S1x128 .f32) (x5 : Vec Ideal S128x40 .f32) (x6 : Vec Ideal S1x40 .f32)
    (p : Fin 4000) (u : Fin 1) :
    k3_pay3 x0 x1 x2 x3 x4 x5 x6 (ix2 p u)
      = ∑ q' : Fin 40, Ideal.exp (logitAt x0 x1 x2 x3 x4 x5 x6 p q' - rowMax fun q'' : Fin 40 => logitAt x0 x1 x2 x3 x4 x5 x6 p q'') := by
  unfold k3_pay3
  refine (rowSum_col_apply _ _ _ _ _ p u).trans ?_
  simp only [exp_apply, shifted_body]

/-- Entry (p, q) of the last stored block: the log-softmax of the row of logits. -/
theorem decoder_body (x0 : Vec Ideal S4000x128 .f32) (x1 : Vec Ideal S128x128 .f32) (x2 : Vec Ideal S1x128 .f32)
    (x3 : Vec Ideal S128x128 .f32) (x4 : Vec Ideal S1x128 .f32) (x5 : Vec Ideal S128x40 .f32) (x6 : Vec Ideal S1x40 .f32)
    (p : Fin 4000) (q : Fin 40) :
    k3_pay1 (k3_pay2 x0 x1 x2 x3 x4 x5 x6) (k3_pay3 x0 x1 x2 x3 x4 x5 x6) (ix2 p q)
      = (logitAt x0 x1 x2 x3 x4 x5 x6 p q - rowMax fun q' : Fin 40 => logitAt x0 x1 x2 x3 x4 x5 x6 p q')
        - Ideal.log (∑ q' : Fin 40, Ideal.exp (logitAt x0 x1 x2 x3 x4 x5 x6 p q' - rowMax fun q'' : Fin 40 => logitAt x0 x1 x2 x3 x4 x5 x6 p q'')) := by
  unfold k3_pay1
  simp only [subf_apply, log_apply, broadcastTo_a1_ab_apply, shifted_body, sumexp_body]

end Cert.KernelIdeal.Body

end
-- ==== Proof.RealSums.lean ====
/-
  Real numbers inside the extended reals.

  At the ideal instance a float is an extended real, and the extended reals are not a ring: a product
  does not distribute over a sum that mixes the two infinities. Every array this certificate moves a
  matrix product across is built from finite inputs by sums, products and maxima, so each of its entries
  is a real number; on such entries the textbook laws hold. This module has the predicate, its closure
  under the operations of a dense layer, and the one law the certificate needs: a sum over edges of rows,
  multiplied into a matrix, is the sum over edges of the rows multiplied into the matrix.
-/
import Idealize.ShloMosaic.PureOps.Ideal

open scoped BigOperators

namespace Cert.Gnn

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW. For real entries `a e k` (edge `e`, feature `k`) and real weights `w k`: summing the rows over a set
    of edges and then contracting with `w` is contracting each row with `w` and then summing over the edges. -/
theorem sum_mul_exchange {ι κ : Type*} [Fintype κ] (s : Finset ι) (a : ι → κ → EReal) (w : κ → EReal)
    (ha : ∀ e k, IsReal (a e k)) (hw : ∀ k, IsReal (w k)) :
    ∑ k, (∑ e ∈ s, a e k) * w k = ∑ e ∈ s, ∑ k, a e k * w k := by
  classical
  choose A hA using ha
  choose W hW using hw
  have h1 : ∀ k, (∑ e ∈ s, a e k) * w k = (((∑ e ∈ s, A e k) * W k : ℝ) : EReal) := fun k => by
    rw [EReal.coe_mul, coe_sum, hW k]
    exact congrArg (· * (W k : EReal)) (Finset.sum_congr rfl fun e _ => hA e k)
  have h2 : ∀ e, ∑ k, a e k * w k = ((∑ k, A e k * W k : ℝ) : EReal) := fun e => by
    rw [coe_sum]
    exact Finset.sum_congr rfl fun k _ => by rw [EReal.coe_mul, hA e k, hW k]
  rw [Finset.sum_congr rfl fun k _ => h1 k, Finset.sum_congr rfl fun e _ => h2 e, ← coe_sum, ← coe_sum]
  refine congrArg _ ?_
  simp_rw [Finset.sum_mul]
  exact Finset.sum_comm

end Cert.Gnn
-- ==== Proof.EdgeRows.lean ====
/-
  Which node row an edge reads, and which it writes.

  The message-passing step gathers, for each of the 600000 edges, one row of a 100000 × 128 array of node features
  (the row its source index names) and adds it into the row its destination index names. Both are StableHLO
  operations with general dimension numbers; at the ones this program uses they act on whole rows:

  * the gather reads row `gatheredRow idx e` — the edge's index read as a signed integer and clamped into the
    array — at the same column;
  * an update at (edge `e`, column `c`) lands on (row `scatterStart idx e`, column `c`) when that row exists, and is
    dropped when it does not; so the accumulated array at (n, c) is the operand there plus the sum, over the edges
    whose index is `n`, of the updates at column `c`.

  Nothing is assumed of the indices: an out-of-range one is clamped by the gather and dropped by the scatter, in
  the same way whatever array is being moved.
-/
import Idealize.ShloMosaic.Lib.ValueIdx
import Idealize.ShloMosaic.PureOps.Ideal.Laws

noncomputable section

open scoped BigOperators

namespace Cert.Gnn

open Idealize.ShloMosaic Idealize.ShloMosaic.ValueIdx

/-- Node features: 100000 rows of 128. -/
abbrev Nodes : Shape := ⟨2, ![100000, 128]⟩
/-- One node index per edge. -/
abbrev EdgeIx : Shape := ⟨2, ![600000, 1]⟩
/-- One row of 128 per edge. -/
abbrev Edges : Shape := ⟨2, ![600000, 128]⟩

/-! ## The gather -/

/-- The dimension numbers of `h[src]` on rows: the start index names axis 0, which is collapsed; axis 1 is the
    slice, whole. -/
abbrev rowGather (wf : GatherDims.WF Nodes EdgeIx Edges [1] [0] [] [0] [] 1 ![1, 128]) : GatherDims Nodes EdgeIx Edges where
  offsetDims := [1]
  collapsedSliceDims := [0]
  operandBatchingDims := []
  startIndicesBatchingDims := []
  startIndexMap := [0]
  indexVectorDim := 1
  sliceSizes := ![1, 128]
  wf := wf

/-- The node row edge `e` gathers: its index read as a signed integer and clamped into `[0, 99999]`. -/
def gatheredRow {w : Nat} (idx : IVec EdgeIx w) (e : Fin 600000) : Fin 100000 :=
  ⟨min (idx (ix2 e (0 : Fin 1))).toInt.toNat 99999, by omega⟩

/-- THE GATHER AT (e, c): the operand at (the row edge `e` names, c). -/
theorem gather_rows_apply {α : Type} {w : Nat} (wf : GatherDims.WF Nodes EdgeIx Edges [1] [0] [] [0] [] 1 ![1, 128])
    (x : Nodes.Idx → α) (idx : IVec EdgeIx w) (e : Fin 600000) (c : Fin 128) :
    Host.gather (rowGather wf) x idx (ix2 e c) = x (ix2 (gatheredRow idx e) c) := by
  unfold Host.gather
  refine congrArg x (funext fun a => Fin.ext ?_)
  match a with
  | ⟨0, _⟩ =>
    show (rowGather wf).start (ix2 e c) idx 0 + (rowGather wf).batchCoord (ix2 e c) 0 + (rowGather wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin Nodes.rank) ∈ (rowGather wf).startIndexMap from List.mem_singleton.mpr rfl)]
    have hsi : (rowGather wf).siIdx (ix2 e c) ⟨List.idxOf (0 : Fin Nodes.rank) (rowGather wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather wf).start (ix2 e c) idx 1 + (rowGather wf).batchCoord (ix2 e c) 1 + (rowGather wf).offCoord (ix2 e c) 1 = c.val
    have hs : (rowGather wf).start (ix2 e c) idx 1 = 0 := by
      unfold GatherDims.start; exact dif_neg (show (1 : Fin 2) ∉ ([0] : List (Fin 2)) by decide)
    have ho : (rowGather wf).offCoord (ix2 e c) 1 = c.val := by
      unfold GatherDims.offCoord; rw [dif_pos (show (1 : Fin 2) ∈ Shape.kept Nodes ([0] ++ []) by decide)]; rfl
    rw [hs, GatherDims.batchCoord_eq_zero _ _ _ List.not_mem_nil, ho]; omega

/-! ## The scatter -/

/-- The dimension numbers of `segment_sum` on rows: the scatter index names axis 0, an inserted window axis; axis 1 is
    the update's window, whole. -/
abbrev rowScatter (wf : ScatterDims.WF Nodes EdgeIx Edges [1] [0] [0] 1) : ScatterDims Nodes EdgeIx Edges where
  updateWindowDims := [1]
  insertedWindowDims := [0]
  scatterDimsToOperandDims := [0]
  indexVectorDim := 1
  wf := wf

/-- The node index edge `e` scatters to, read as a signed integer and NOT clamped. -/
def scatterStart {w : Nat} (idx : IVec EdgeIx w) (e : Fin 600000) : Int := (idx (ix2 e (0 : Fin 1))).toInt

theorem scatter_pos0 {w : Nat} (wf : ScatterDims.WF Nodes EdgeIx Edges [1] [0] [0] 1) (idx : IVec EdgeIx w)
    (e : Fin 600000) (c : Fin 128) :
    (rowScatter wf).start (ix2 e c) idx 0 + ((rowScatter wf).window (ix2 e c) 0 : Int) = scatterStart idx e := by
  have hw : (rowScatter wf).window (ix2 e c) 0 = 0 := by
    unfold ScatterDims.window; exact dif_neg (show (0 : Fin 2) ∉ Shape.kept Nodes [0] by decide)
  rw [hw]
  unfold ScatterDims.start
  rw [dif_pos (show (0 : Fin Nodes.rank) ∈ (rowScatter wf).scatterDimsToOperandDims from List.mem_singleton.mpr rfl)]
  have hsi : (rowScatter wf).siIdx (ix2 e c) ⟨List.idxOf (0 : Fin Nodes.rank) (rowScatter wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp [scatterStart]

theorem scatter_pos1 {w : Nat} (wf : ScatterDims.WF Nodes EdgeIx Edges [1] [0] [0] 1) (idx : IVec EdgeIx w)
    (e : Fin 600000) (c : Fin 128) :
    (rowScatter wf).start (ix2 e c) idx 1 + ((rowScatter wf).window (ix2 e c) 1 : Int) = (c.val : Int) := by
  have hs : (rowScatter wf).start (ix2 e c) idx 1 = 0 := by
    unfold ScatterDims.start; exact dif_neg (show (1 : Fin 2) ∉ ([0] : List (Fin 2)) by decide)
  have hw : (rowScatter wf).window (ix2 e c) 1 = c.val := by
    unfold ScatterDims.window; rw [dif_pos (show (1 : Fin 2) ∈ Shape.kept Nodes [0] by decide)]; rfl
  rw [hs, hw]; simp

/-- WHERE AN UPDATE LANDS: the update at (edge `e`, column `c`) lands on (row `n`, column `c'`) exactly when the edge's
    index is `n` and the columns agree; an edge whose index is no row of the array lands nowhere. -/
theorem resultIdx_eq_some_iff {w : Nat} (wf : ScatterDims.WF Nodes EdgeIx Edges [1] [0] [0] 1) (idx : IVec EdgeIx w)
    (e : Fin 600000) (c : Fin 128) (n : Fin 100000) (c' : Fin 128) :
    (rowScatter wf).resultIdx? (ix2 e c) idx = some (ix2 n c') ↔ scatterStart idx e = (n.val : Int) ∧ c = c' := by
  have p0 := scatter_pos0 wf idx e c
  have p1 := scatter_pos1 wf idx e c
  have hn := n.isLt
  have hc := c.isLt
  unfold ScatterDims.resultIdx?
  split
  · rename_i h
    constructor
    · intro hEq
      have hEq' := Option.some.inj hEq
      have h0 : ((rowScatter wf).start (ix2 e c) idx 0 + ((rowScatter wf).window (ix2 e c) 0 : Int)).toNat = n.val :=
        congrArg (fun i : Nodes.Idx => (i 0).val) hEq'
      have h1 : ((rowScatter wf).start (ix2 e c) idx 1 + ((rowScatter wf).window (ix2 e c) 1 : Int)).toNat = c'.val :=
        congrArg (fun i : Nodes.Idx => (i 1).val) hEq'
      have b0 := (h 0).1
      rw [p0] at h0 b0
      rw [p1] at h1
      exact ⟨by omega, Fin.ext (by omega)⟩
    · rintro ⟨hs, rfl⟩
      refine congrArg some (funext fun a => Fin.ext ?_)
      match a with
      | ⟨0, _⟩ =>
        show ((rowScatter wf).start (ix2 e c) idx 0 + ((rowScatter wf).window (ix2 e c) 0 : Int)).toNat = n.val
        rw [p0, hs]; exact Int.toNat_natCast _
      | ⟨1, _⟩ =>
        show ((rowScatter wf).start (ix2 e c) idx 1 + ((rowScatter wf).window (ix2 e c) 1 : Int)).toNat = c.val
        rw [p1]; exact Int.toNat_natCast _
  · rename_i h
    constructor
    · intro hEq; exact absurd hEq (by simp)
    · rintro ⟨hs, rfl⟩
      exfalso; apply h; intro a
      match a with
      | ⟨0, _⟩ =>
        show 0 ≤ (rowScatter wf).start (ix2 e c) idx 0 + ((rowScatter wf).window (ix2 e c) 0 : Int)
          ∧ (rowScatter wf).start (ix2 e c) idx 0 + ((rowScatter wf).window (ix2 e c) 0 : Int) < ((100000 : Nat) : Int)
        rw [p0, hs]; omega
      | ⟨1, _⟩ =>
        show 0 ≤ (rowScatter wf).start (ix2 e c) idx 1 + ((rowScatter wf).window (ix2 e c) 1 : Int)
          ∧ (rowScatter wf).start (ix2 e c) idx 1 + ((rowScatter wf).window (ix2 e c) 1 : Int) < ((128 : Nat) : Int)
        rw [p1]; omega

/-- THE ACCUMULATED ARRAY AT (n, c): the operand there plus the sum, over the edges whose index is `n`, of the updates at
    column `c`. -/
theorem scatterAdd_rows_apply {w : Nat} (wf : ScatterDims.WF Nodes EdgeIx Edges [1] [0] [0] 1) (x : Nodes.Idx → EReal)
    (idx : IVec EdgeIx w) (upd : Edges.Idx → EReal) (n : Fin 100000) (c : Fin 128) :
    Ideal.hostScatterAdd (rowScatter wf) x idx upd (ix2 n c)
      = x (ix2 n c) + ∑ e ∈ Finset.univ.filter (fun e : Fin 600000 => scatterStart idx e = (n.val : Int)), upd (ix2 e c) := by
  unfold Ideal.hostScatterAdd
  refine congrArg (x (ix2 n c) + ·) ?_
  refine Finset.sum_bij (fun (j : Edges.Idx) _ => (j 0 : Fin 600000)) ?_ ?_ ?_ ?_
  · intro j hj
    obtain ⟨e, c', rfl⟩ : ∃ (e : Fin 600000) (c' : Fin 128), j = ix2 e c' := ⟨j 0, j 1, eq_ix2 j⟩
    exact Finset.mem_filter.mpr ⟨Finset.mem_univ _,
      ((resultIdx_eq_some_iff wf idx e c' n c).mp (Finset.mem_filter.mp hj).2).1⟩
  · intro j1 h1 j2 h2 he
    obtain ⟨e1, c1, rfl⟩ : ∃ (e : Fin 600000) (c' : Fin 128), j1 = ix2 e c' := ⟨j1 0, j1 1, eq_ix2 j1⟩
    obtain ⟨e2, c2, rfl⟩ : ∃ (e : Fin 600000) (c' : Fin 128), j2 = ix2 e c' := ⟨j2 0, j2 1, eq_ix2 j2⟩
    have a1 := ((resultIdx_eq_some_iff wf idx e1 c1 n c).mp (Finset.mem_filter.mp h1).2).2
    have a2 := ((resultIdx_eq_some_iff wf idx e2 c2 n c).mp (Finset.mem_filter.mp h2).2).2
    have he' : e1 = e2 := he
    rw [he', a1, a2]
  · intro e he
    exact ⟨ix2 e c, Finset.mem_filter.mpr ⟨Finset.mem_univ _,
      (resultIdx_eq_some_iff wf idx e c n c).mpr ⟨(Finset.mem_filter.mp he).2, rfl⟩⟩, rfl⟩
  · intro j hj
    obtain ⟨e, c', rfl⟩ : ∃ (e : Fin 600000) (c' : Fin 128), j = ix2 e c' := ⟨j 0, j 1, eq_ix2 j⟩
    have a := ((resultIdx_eq_some_iff wf idx e c' n c).mp (Finset.mem_filter.mp hj).2).2
    rw [a]

end Cert.Gnn
-- ==== Proof.Layers.lean ====
/-
  The network, layer by layer, as functions of whole arrays.

  An encoder of two dense layers; three rounds of message passing, each a matrix product, a gather of source rows,
  a sum into destination rows, a bias and a rectifier; a decoder of two dense layers and a log-softmax of each row.
  The kernel and the reference differ in ONE place: in each round the reference multiplies by the round's matrix
  before the rows travel along the edges, the kernel after. The two agree because travelling along the edges is
  linear — a sum of rows times a matrix is the sum of the rows times the matrix — and that law holds on the extended
  reals only where the entries are real numbers. So the module also shows that every array that enters a round is
  real when the inputs are: sums, products and maxima of reals are reals.
-/
import proofs.«109249_j70978629534135_2_alg».proof.Proof.RealSums
import proofs.«109249_j70978629534135_2_alg».proof.Proof.EdgeRows
import proofs.«109249_j70978629534135_2_alg».proof.Proof.Layout

noncomputable section

open scoped BigOperators

namespace Cert.Gnn

open Idealize.ShloMosaic Idealize.ShloMosaic.ValueIdx

/-- Every entry of the array is a real number. -/
def AllReal {s : Shape} (a : s.Idx → EReal) : Prop := ∀ i, IsReal (a i)

/-! ## Dense layers -/

section Dense
variable {N K J : ℕ}

/-- Rows times a matrix: entry (n, j) is the sum over `k` of a(n, k) · w(k, j). -/
def rowsMul (a : (⟨2, ![N, K]⟩ : Shape).Idx → EReal) (w : (⟨2, ![K, J]⟩ : Shape).Idx → EReal) :
    (⟨2, ![N, J]⟩ : Shape).Idx → EReal :=
  fun i => ∑ k : Fin K, a (ix2 (n0 := N) (i 0) k) * w (ix2 (n1 := J) k (i 1))

/-- A bias row added to every row. -/
def addRow (a : (⟨2, ![N, J]⟩ : Shape).Idx → EReal) (b : (⟨1, ![J]⟩ : Shape).Idx → EReal) :
    (⟨2, ![N, J]⟩ : Shape).Idx → EReal :=
  fun i => a i + b (ix1 (n := J) (i 1))

/-- The rectifier, entry by entry. -/
def relu {s : Shape} (a : s.Idx → EReal) : s.Idx → EReal := fun i => max (a i) 0

/-- A dense layer: rows times a matrix plus a bias row. -/
def dense (a : (⟨2, ![N, K]⟩ : Shape).Idx → EReal) (w : (⟨2, ![K, J]⟩ : Shape).Idx → EReal)
    (b : (⟨1, ![J]⟩ : Shape).Idx → EReal) : (⟨2, ![N, J]⟩ : Shape).Idx → EReal :=
  addRow (rowsMul a w) b

/-- The log-softmax of each row, written as both programs compute it: the row's maximum taken off every entry, then the
    logarithm of the sum of the exponentials taken off. -/
def logSoftmax (z : (⟨2, ![N, J]⟩ : Shape).Idx → EReal) : (⟨2, ![N, J]⟩ : Shape).Idx → EReal := fun i =>
  (z i - rowMax fun k : Fin J => z (ix2 (n0 := N) (i 0) k))
    - Ideal.log (∑ k : Fin J, Ideal.exp (z (ix2 (n0 := N) (i 0) k) - rowMax fun k' : Fin J => z (ix2 (n0 := N) (i 0) k')))

/-- The one row of a `[1, J]` array, as a vector (a bias reaches a kernel as such an array). -/
def rowOf (b : (⟨2, ![1, J]⟩ : Shape).Idx → EReal) : (⟨1, ![J]⟩ : Shape).Idx → EReal :=
  fun j => b (ix2 (0 : Fin 1) (n1 := J) (j 0))

theorem rowsMul_real {a : (⟨2, ![N, K]⟩ : Shape).Idx → EReal} {w : (⟨2, ![K, J]⟩ : Shape).Idx → EReal}
    (ha : AllReal a) (hw : AllReal w) : AllReal (rowsMul a w) :=
  fun _ => IsReal.sum _ _ fun _ _ => (ha _).mul (hw _)

theorem addRow_real {a : (⟨2, ![N, J]⟩ : Shape).Idx → EReal} {b : (⟨1, ![J]⟩ : Shape).Idx → EReal}
    (ha : AllReal a) (hb : AllReal b) : AllReal (addRow a b) :=
  fun i => (ha i).add (hb _)

theorem relu_real {s : Shape} {a : s.Idx → EReal} (ha : AllReal a) : AllReal (relu a) :=
  fun i => (ha i).max IsReal.zero

theorem dense_real {a : (⟨2, ![N, K]⟩ : Shape).Idx → EReal} {w : (⟨2, ![K, J]⟩ : Shape).Idx → EReal}
    {b : (⟨1, ![J]⟩ : Shape).Idx → EReal} (ha : AllReal a) (hw : AllReal w) (hb : AllReal b) : AllReal (dense a w b) :=
  addRow_real (rowsMul_real ha hw) hb

end Dense

/-! ## Along the edges -/

section Edges
variable {w : ℕ} (wfG : GatherDims.WF Nodes EdgeIx Edges [1] [0] [] [0] [] 1 ![1, 128])
  (wfS : ScatterDims.WF Nodes EdgeIx Edges [1] [0] [0] 1) (src dst : IVec EdgeIx w)

/-- One round's traffic: every edge carries its source's row to its destination, where the rows are summed from zero. -/
def aggregate (a : Nodes.Idx → EReal) : Nodes.Idx → EReal :=
  Ideal.hostScatterAdd (rowScatter wfS) (fun _ => 0) dst (Host.gather (rowGather wfG) a src)

/-- At (n, c): the sum, over the edges that arrive at `n`, of the source rows' entries at column `c`. -/
theorem aggregate_apply (a : Nodes.Idx → EReal) (n : Fin 100000) (c : Fin 128) :
    aggregate wfG wfS src dst a (ix2 n c)
      = ∑ e ∈ Finset.univ.filter (fun e : Fin 600000 => scatterStart dst e = (n.val : Int)), a (ix2 (gatheredRow src e) c) := by
  unfold aggregate
  rw [scatterAdd_rows_apply, zero_add]
  exact Finset.sum_congr rfl fun e _ => gather_rows_apply wfG a src e c

theorem aggregate_real {a : Nodes.Idx → EReal} (ha : AllReal a) : AllReal (aggregate wfG wfS src dst a) := fun i => by
  obtain ⟨n, c, rfl⟩ : ∃ (n : Fin 100000) (c : Fin 128), i = ix2 n c := ⟨i 0, i 1, eq_ix2 i⟩
  rw [aggregate_apply]
  exact IsReal.sum _ _ fun _ _ => ha _

/-- THE LAW OF A ROUND: on real entries, multiplying by the round's matrix after the rows have travelled is multiplying
    before. -/
theorem rowsMul_aggregate (a : Nodes.Idx → EReal) (W : (⟨2, ![128, 128]⟩ : Shape).Idx → EReal) (ha : AllReal a) (hW : AllReal W) :
    rowsMul (aggregate wfG wfS src dst a) W = aggregate wfG wfS src dst (rowsMul a W) := by
  funext i
  obtain ⟨n, c, rfl⟩ : ∃ (n : Fin 100000) (c : Fin 128), i = ix2 n c := ⟨i 0, i 1, eq_ix2 i⟩
  rw [aggregate_apply]
  show ∑ k : Fin 128, aggregate wfG wfS src dst a (ix2 n k) * W (ix2 k c) = _
  simp only [aggregate_apply]
  exact sum_mul_exchange _ (fun e k => a (ix2 (gatheredRow src e) k)) (fun k => W (ix2 k c)) (fun _ _ => ha _) (fun _ => hW _)

/-- A round as the kernel runs it: travel, then the dense layer, then the rectifier. -/
def roundKernel (h : Nodes.Idx → EReal) (W : (⟨2, ![128, 128]⟩ : Shape).Idx → EReal) (b : (⟨1, ![128]⟩ : Shape).Idx → EReal) :
    Nodes.Idx → EReal :=
  relu (dense (aggregate wfG wfS src dst h) W b)

/-- A round as the reference runs it: the matrix, then travel, then the bias and the rectifier. -/
def roundReference (h : Nodes.Idx → EReal) (W : (⟨2, ![128, 128]⟩ : Shape).Idx → EReal) (b : (⟨1, ![128]⟩ : Shape).Idx → EReal) :
    Nodes.Idx → EReal :=
  relu (addRow (aggregate wfG wfS src dst (rowsMul h W)) b)

theorem round_eq (h : Nodes.Idx → EReal) (W : (⟨2, ![128, 128]⟩ : Shape).Idx → EReal) (b : (⟨1, ![128]⟩ : Shape).Idx → EReal)
    (hh : AllReal h) (hW : AllReal W) : roundKernel wfG wfS src dst h W b = roundReference wfG wfS src dst h W b := by
  unfold roundKernel roundReference dense
  rw [rowsMul_aggregate wfG wfS src dst h W hh hW]

theorem roundKernel_real {h : Nodes.Idx → EReal} {W : (⟨2, ![128, 128]⟩ : Shape).Idx → EReal} {b : (⟨1, ![128]⟩ : Shape).Idx → EReal}
    (hh : AllReal h) (hW : AllReal W) (hb : AllReal b) : AllReal (roundKernel wfG wfS src dst h W b) :=
  relu_real (dense_real (aggregate_real wfG wfS src dst hh) hW hb)

/-- THREE ROUNDS: from a real array, through real matrices and biases, the kernel's three rounds are the reference's. -/
theorem three_rounds_eq (h : Nodes.Idx → EReal) (W0 W1 W2 : (⟨2, ![128, 128]⟩ : Shape).Idx → EReal)
    (b0 b1 b2 : (⟨1, ![128]⟩ : Shape).Idx → EReal) (hh : AllReal h) (hW0 : AllReal W0) (hW1 : AllReal W1) (hW2 : AllReal W2)
    (hb0 : AllReal b0) (hb1 : AllReal b1) :
    roundKernel wfG wfS src dst (roundKernel wfG wfS src dst (roundKernel wfG wfS src dst h W0 b0) W1 b1) W2 b2
      = roundReference wfG wfS src dst (roundReference wfG wfS src dst (roundReference wfG wfS src dst h W0 b0) W1 b1) W2 b2 := by
  have r1 := roundKernel_real wfG wfS src dst hh hW0 hb0
  have r2 := roundKernel_real wfG wfS src dst r1 hW1 hb1
  rw [round_eq wfG wfS src dst _ W2 b2 r2 hW2, round_eq wfG wfS src dst _ W1 b1 r1 hW1, round_eq wfG wfS src dst h W0 b0 hh hW0]

end Edges

end Cert.Gnn
-- ==== Proof.Encoder.lean ====
/-
  The encoder's array.

  Region 0 runs the encoder's body at 25 grid points. Point `t` fetches rows 4000·t … 4000·t + 3999 of the input
  features and the whole of the two matrices and the two bias rows, and writes back the same rows of the output. Each
  written block is the restriction, to those rows, of one function of the arrays the region finds: the two dense
  layers with the rectifier between them. The blocks tile the output, so after the region the output array is that
  function.
-/
import proofs.«109249_j70978629534135_2_alg».proof.Proof.Gen.KernelIdeal.Frame
import proofs.«109249_j70978629534135_2_alg».proof.Proof.Bodies
import proofs.«109249_j70978629534135_2_alg».proof.Proof.Layers

set_option maxRecDepth 16384

noncomputable section

namespace Cert.KernelIdeal.Encoder

open Cert.KernelIdeal Cert.KernelIdeal.Gen Cert.KernelIdeal.Body Cert.Gnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- What the encoder leaves in its output array, as a function of the arrays the region finds. -/
abbrev encoderArray (c : Dev nD) : S100000x128.Idx → EReal :=
  dense (N := 100000) (K := 256) (J := 128)
    (relu (dense (N := 100000) (K := 128) (J := 256) (V c main_arg0) (V c main_arg2) (rowOf (J := 256) (V c main_v4))))
    (V c main_arg4) (rowOf (J := 128) (V c main_v5))

/-- The index maps over the grid: the features' window and the output's move together down the rows; the matrices and
    the bias rows are fetched whole. -/
theorem index_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every block of rows is some point's. -/
theorem index_onto : ∀ r : Fin 25, ∃ t : Fin cfg0.N, win0_5.index t = ![r.val, 0] :=
  (by decide +kernel : ∀ r : Fin 25, ∃ t : Fin grid0.N, win0_5.index t = ![r.val, 0])

/-- WHAT POINT `t` WRITES BACK is block `t` of the encoder's function of the arrays the region finds. -/
theorem flushed_eq (c : Dev nD) (t : Fin cfg0.N) :
    (dat0 V c).flushed 5 t = ((cfg0.win 5).blk t).view.read (Elt Ideal) (encoderArray V c) := by
  show (cfg0.win 5).cut (grid0.coords t) ((dat0 V c).after 5 t) = _
  rw [after0_5]
  unfold out0_5
  rw [View.canon_unit_zero zeros]
  simp only [View.ld_unit_zero (S := S4000x128) zeros, View.ld_unit_zero (S := S128x256) zeros,
    View.ld_unit_zero (S := S1x256) zeros, View.ld_unit_zero (S := S256x128) zeros, View.ld_unit_zero (S := S1x128) zeros]
  obtain ⟨e0, e1, e2, e3, e4, e5, e6, e7, e8, e9, e10⟩ := index_facts t
  funext j
  obtain ⟨p, q, rfl⟩ : ∃ (p : Fin 4000) (q : Fin 128), j = ix2 p q := ⟨j 0, j 1, eq_ix2 j⟩
  refine (encoder_body (iblk0 V c 0 t) (iblk0 V c 1 t) (iblk0 V c 2 t) (iblk0 V c 3 t) (iblk0 V c 4 t) p q).trans ?_
  have r0 : ∀ k : Fin 128, iblk0 V c 0 t (ix2 p k)
      = V c main_arg0 (ix2 (n0 := 100000) ((((cfg0.win 5).blk t).view.emb (ix2 p q)) 0) k) := fun k => by
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = win0_5.index t (0 : Fin 2) * 4000 + 1 * p.val; omega
    | ⟨1, _⟩ => show win0_0.index t (1 : Fin 2) * 128 + 1 * k.val = k.val; omega
  have r1 : ∀ (k : Fin 128) (k' : Fin 256), iblk0 V c 1 t (ix2 k k') = V c main_arg2 (ix2 k k') := fun k k' => by
    show V c main_arg2 (((cfg0.win 1).blk t).view.emb (ix2 k k')) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 256 + 1 * k'.val = k'.val; omega
  have r2 : ∀ k' : Fin 256, iblk0 V c 2 t (ix2 (0 : Fin 1) k') = V c main_v4 (ix2 (0 : Fin 1) k') := fun k' => by
    show V c main_v4 (((cfg0.win 2).blk t).view.emb (ix2 (0 : Fin 1) k')) = _
    refine congrArg (V c main_v4) (funext fun a => Fin.ext ?_)
    match a with
    | ⟨0, _⟩ => show win0_2.index t (0 : Fin 2) * 1 + 1 * 0 = 0; omega
    | ⟨1, _⟩ => show win0_2.index t (1 : Fin 2) * 256 + 1 * k'.val = k'.val; omega
  have r3 : ∀ k' : Fin 256, iblk0 V c 3 t (ix2 k' q)
      = V c main_arg4 (ix2 (n1 := 128) k' ((((cfg0.win 5).blk t).view.emb (ix2 p q)) 1)) := fun k' => by
    show V c main_arg4 (((cfg0.win 3).blk t).view.emb (ix2 k' q)) = _
    refine congrArg (V c main_arg4) (funext fun a => Fin.ext ?_)
    match a with
    | ⟨0, _⟩ => show win0_3.index t (0 : Fin 2) * 256 + 1 * k'.val = k'.val; omega
    | ⟨1, _⟩ => show win0_3.index t (1 : Fin 2) * 128 + 1 * q.val = win0_5.index t (1 : Fin 2) * 128 + 1 * q.val; omega
  have r4 : iblk0 V c 4 t (ix2 (0 : Fin 1) q)
      = V c main_v5 (ix2 (0 : Fin 1) (n1 := 128) ((((cfg0.win 5).blk t).view.emb (ix2 p q)) 1)) := by
    show V c main_v5 (((cfg0.win 4).blk t).view.emb (ix2 (0 : Fin 1) q)) = _
    refine congrArg (V c main_v5) (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega
  simp only [r0, r1, r2, r3, r4]
  rfl

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v6).slice (win0_5.rect t)).set ↔ _
  rw [View.set_slice_whole, Rect.mem_set_unit]
  exact Iff.rfl

/-- The 25 blocks of 4000 rows tile the 100000 rows. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := index_onto ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE ARRAY after the region: the encoder's function of the arrays the region found. -/
theorem array_eq (c : Dev nD) : (dat0 V c).arrAt 5 cfg0.N = encoderArray V c :=
  (dat0 V c).arrAt_eq_of_cover 5 (encoderArray V c) (fun t _ => flushed_eq V c t) cover

end Cert.KernelIdeal.Encoder

end
-- ==== Proof.Round1.lean ====
/-
  The first round's array.

  Region 1 runs the round's body at 25 grid points. Point `t` fetches rows 4000·t … 4000·t + 3999 of the aggregated
  array and the whole of the round's matrix and bias, and writes back the same rows of the output. Each written
  block is therefore the restriction, to those rows, of ONE function of the arrays the region finds: the dense layer
  of the aggregated array, rectified. The blocks tile the output, so after the region the output array is that
  function.
-/
import proofs.«109249_j70978629534135_2_alg».proof.Proof.Gen.KernelIdeal.Frame
import proofs.«109249_j70978629534135_2_alg».proof.Proof.Bodies
import proofs.«109249_j70978629534135_2_alg».proof.Proof.Layers

set_option maxRecDepth 16384

noncomputable section

namespace Cert.KernelIdeal.Round1

open Cert.KernelIdeal Cert.KernelIdeal.Gen Cert.KernelIdeal.Body Cert.Gnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- What the round leaves in its output array, as a function of the arrays the region finds: the aggregated rows, the
    round's matrix, its bias. -/
abbrev roundArray (c : Dev nD) : S100000x128.Idx → EReal :=
  relu (dense (N := 100000) (K := 128) (J := 128) (V c main_v17) (V c main_v19) (rowOf (J := 128) (V c main_v22)))

/-- The index maps over the grid: the aggregated array's window and the output's move together down the rows; the
    matrix and the bias are fetched whole. -/
theorem index_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 24 :=
  (by decide +kernel : ∀ t : Fin grid1.N, _)

/-- Every block of rows is some point's. -/
theorem index_onto : ∀ r : Fin 25, ∃ t : Fin cfg1.N, win1_3.index t = ![r.val, 0] :=
  (by decide +kernel : ∀ r : Fin 25, ∃ t : Fin grid1.N, win1_3.index t = ![r.val, 0])

/-- WHAT POINT `t` WRITES BACK is block `t` of the round's function of the arrays the region finds. -/
theorem flushed_eq (c : Dev nD) (t : Fin cfg1.N) :
    (dat1 V c).flushed 3 t = ((cfg1.win 3).blk t).view.read (Elt Ideal) (roundArray V c) := by
  show (cfg1.win 3).cut (grid1.coords t) ((dat1 V c).after 3 t) = _
  rw [after1_3]
  unfold out1_3
  rw [View.canon_unit_zero zeros]
  simp only [View.ld_unit_zero (S := S4000x128) zeros, View.ld_unit_zero (S := S128x128) zeros,
    View.ld_unit_zero (S := S1x128) zeros]
  obtain ⟨e0, e1, e2, e3, e4, e5, e6, e7⟩ := index_facts t
  funext j
  obtain ⟨p, q, rfl⟩ : ∃ (p : Fin 4000) (q : Fin 128), j = ix2 p q := ⟨j 0, j 1, eq_ix2 j⟩
  refine (round_body (iblk1 V c 0 t) (iblk1 V c 1 t) (iblk1 V c 2 t) p q).trans ?_
  have r0 : ∀ k : Fin 128, iblk1 V c 0 t (ix2 p k)
      = V c main_v17 (ix2 (n0 := 100000) ((((cfg1.win 3).blk t).view.emb (ix2 p q)) 0) k) := fun k => by
    show V c main_v17 (((cfg1.win 0).blk t).view.emb (ix2 p k)) = _
    refine congrArg (V c main_v17) (funext fun a => Fin.ext ?_)
    match a with
    | ⟨0, _⟩ => show win1_0.index t (0 : Fin 2) * 4000 + 1 * p.val = win1_3.index t (0 : Fin 2) * 4000 + 1 * p.val; omega
    | ⟨1, _⟩ => show win1_0.index t (1 : Fin 2) * 128 + 1 * k.val = k.val; omega
  have r1 : ∀ k : Fin 128, iblk1 V c 1 t (ix2 k q)
      = V c main_v19 (ix2 (n1 := 128) k ((((cfg1.win 3).blk t).view.emb (ix2 p q)) 1)) := fun k => by
    show V c main_v19 (((cfg1.win 1).blk t).view.emb (ix2 k q)) = _
    refine congrArg (V c main_v19) (funext fun a => Fin.ext ?_)
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  have r2 : iblk1 V c 2 t (ix2 (0 : Fin 1) q)
      = V c main_v22 (ix2 (0 : Fin 1) (n1 := 128) ((((cfg1.win 3).blk t).view.emb (ix2 p q)) 1)) := by
    show V c main_v22 (((cfg1.win 2).blk t).view.emb (ix2 (0 : Fin 1) q)) = _
    refine congrArg (V c main_v22) (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  simp only [r0, r1, r2]
  rfl

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v23).slice (win1_3.rect t)).set ↔ _
  rw [View.set_slice_whole, Rect.mem_set_unit]
  exact Iff.rfl

/-- The 25 blocks of 4000 rows tile the 100000 rows. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := index_onto ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

/-- THE ARRAY after the region: the round's function of the arrays the region found. -/
theorem array_eq (c : Dev nD) : (dat1 V c).arrAt 3 cfg1.N = roundArray V c :=
  (dat1 V c).arrAt_eq_of_cover 3 (roundArray V c) (fun t _ => flushed_eq V c t) cover

end Cert.KernelIdeal.Round1

end
-- ==== Proof.Round2.lean ====
/-
  The second round's array.

  Region 2 runs the round's body at 25 grid points. Point `t` fetches rows 4000·t … 4000·t + 3999 of the aggregated
  array and the whole of the round's matrix and bias, and writes back the same rows of the output. Each written
  block is therefore the restriction, to those rows, of ONE function of the arrays the region finds: the dense layer
  of the aggregated array, rectified. The blocks tile the output, so after the region the output array is that
  function.
-/
import proofs.«109249_j70978629534135_2_alg».proof.Proof.Gen.KernelIdeal.Frame
import proofs.«109249_j70978629534135_2_alg».proof.Proof.Bodies
import proofs.«109249_j70978629534135_2_alg».proof.Proof.Layers

set_option maxRecDepth 16384

noncomputable section

namespace Cert.KernelIdeal.Round2

open Cert.KernelIdeal Cert.KernelIdeal.Gen Cert.KernelIdeal.Body Cert.Gnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- What the round leaves in its output array, as a function of the arrays the region finds: the aggregated rows, the
    round's matrix, its bias. -/
abbrev roundArray (c : Dev nD) : S100000x128.Idx → EReal :=
  relu (dense (N := 100000) (K := 128) (J := 128) (V c main_v34) (V c main_v36) (rowOf (J := 128) (V c main_v39)))

/-- The index maps over the grid: the aggregated array's window and the output's move together down the rows; the
    matrix and the bias are fetched whole. -/
theorem index_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 24 :=
  (by decide +kernel : ∀ t : Fin grid2.N, _)

/-- Every block of rows is some point's. -/
theorem index_onto : ∀ r : Fin 25, ∃ t : Fin cfg2.N, win2_3.index t = ![r.val, 0] :=
  (by decide +kernel : ∀ r : Fin 25, ∃ t : Fin grid2.N, win2_3.index t = ![r.val, 0])

/-- WHAT POINT `t` WRITES BACK is block `t` of the round's function of the arrays the region finds. -/
theorem flushed_eq (c : Dev nD) (t : Fin cfg2.N) :
    (dat2 V c).flushed 3 t = ((cfg2.win 3).blk t).view.read (Elt Ideal) (roundArray V c) := by
  show (cfg2.win 3).cut (grid2.coords t) ((dat2 V c).after 3 t) = _
  rw [after2_3]
  unfold out2_3
  rw [View.canon_unit_zero zeros]
  simp only [View.ld_unit_zero (S := S4000x128) zeros, View.ld_unit_zero (S := S128x128) zeros,
    View.ld_unit_zero (S := S1x128) zeros]
  obtain ⟨e0, e1, e2, e3, e4, e5, e6, e7⟩ := index_facts t
  funext j
  obtain ⟨p, q, rfl⟩ : ∃ (p : Fin 4000) (q : Fin 128), j = ix2 p q := ⟨j 0, j 1, eq_ix2 j⟩
  refine (round_body' (iblk2 V c 0 t) (iblk2 V c 1 t) (iblk2 V c 2 t) p q).trans ?_
  have r0 : ∀ k : Fin 128, iblk2 V c 0 t (ix2 p k)
      = V c main_v34 (ix2 (n0 := 100000) ((((cfg2.win 3).blk t).view.emb (ix2 p q)) 0) k) := fun k => by
    show V c main_v34 (((cfg2.win 0).blk t).view.emb (ix2 p k)) = _
    refine congrArg (V c main_v34) (funext fun a => Fin.ext ?_)
    match a with
    | ⟨0, _⟩ => show win2_0.index t (0 : Fin 2) * 4000 + 1 * p.val = win2_3.index t (0 : Fin 2) * 4000 + 1 * p.val; omega
    | ⟨1, _⟩ => show win2_0.index t (1 : Fin 2) * 128 + 1 * k.val = k.val; omega
  have r1 : ∀ k : Fin 128, iblk2 V c 1 t (ix2 k q)
      = V c main_v36 (ix2 (n1 := 128) k ((((cfg2.win 3).blk t).view.emb (ix2 p q)) 1)) := fun k => by
    show V c main_v36 (((cfg2.win 1).blk t).view.emb (ix2 k q)) = _
    refine congrArg (V c main_v36) (funext fun a => Fin.ext ?_)
    match a with
    | ⟨0, _⟩ => show win2_1.index t (0 : Fin 2) * 128 + 1 * k.val = k.val; omega
    | ⟨1, _⟩ => show win2_1.index t (1 : Fin 2) * 128 + 1 * q.val = win2_3.index t (1 : Fin 2) * 128 + 1 * q.val; omega
  have r2 : iblk2 V c 2 t (ix2 (0 : Fin 1) q)
      = V c main_v39 (ix2 (0 : Fin 1) (n1 := 128) ((((cfg2.win 3).blk t).view.emb (ix2 p q)) 1)) := by
    show V c main_v39 (((cfg2.win 2).blk t).view.emb (ix2 (0 : Fin 1) q)) = _
    refine congrArg (V c main_v39) (funext fun a => Fin.ext ?_)
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  simp only [r0, r1, r2]
  rfl

/-- An index of the array is in point `t`'s block iff each coordinate is in the block's range on its axis. -/
theorem mem_blk (t : Fin cfg2.N) (i : S100000x128.Idx) :
    i ∈ ((cfg2.win 3).blk t).view.set ↔ ∀ a : Fin 2, win2_3.index t a * S4000x128.size a ≤ (i a).val
      ∧ (i a).val < win2_3.index t a * S4000x128.size a + S4000x128.size a := by
  show i ∈ ((View.whole main_v40).slice (win2_3.rect t)).set ↔ _
  rw [View.set_slice_whole, Rect.mem_set_unit]
  exact Iff.rfl

/-- The 25 blocks of 4000 rows tile the 100000 rows. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := index_onto ⟨(i 0).val / 4000, by omega⟩
  have q0 : win2_3.index t (0 : Fin 2) = (i 0).val / 4000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 128 ≤ (i 1).val ∧ (i 1).val < win2_3.index t (1 : Fin 2) * 128 + 128; omega

/-- THE ARRAY after the region: the round's function of the arrays the region found. -/
theorem array_eq (c : Dev nD) : (dat2 V c).arrAt 3 cfg2.N = roundArray V c :=
  (dat2 V c).arrAt_eq_of_cover 3 (roundArray V c) (fun t _ => flushed_eq V c t) cover

end Cert.KernelIdeal.Round2

end
-- ==== Proof.Decoder.lean ====
/-
  The last region's array: the third round's dense layer, the decoder, the log-softmax.

  Region 3 runs its body at 25 grid points. Point `t` fetches rows 4000·t … 4000·t + 3999 of the aggregated array and
  the whole of the three matrices and the three bias rows, and writes back the same rows of the 100000 × 40 result.
  Everything the body does to a row — three dense layers, two rectifiers, the row's maximum, the sum of its
  exponentials — stays within the row, so each written block is the restriction to its rows of one function of the
  arrays the region finds, and the blocks tile the result.
-/
import proofs.«109249_j70978629534135_2_alg».proof.Proof.Gen.KernelIdeal.Frame
import proofs.«109249_j70978629534135_2_alg».proof.Proof.Bodies
import proofs.«109249_j70978629534135_2_alg».proof.Proof.Layers

set_option maxRecDepth 16384

noncomputable section

namespace Cert.KernelIdeal.Decoder

open Cert.KernelIdeal Cert.KernelIdeal.Gen Cert.KernelIdeal.Body Cert.Gnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- What the last region leaves in the result, as a function of the arrays the region finds. -/
abbrev decoderArray (c : Dev nD) : S100000x40.Idx → EReal :=
  logSoftmax (N := 100000) (J := 40)
    (dense (N := 100000) (K := 128) (J := 40)
      (relu (dense (N := 100000) (K := 128) (J := 128)
        (relu (dense (N := 100000) (K := 128) (J := 128) (V c main_v51) (V c main_v53) (rowOf (J := 128) (V c main_v56))))
        (V c main_arg8) (rowOf (J := 128) (V c main_v57))))
      (V c main_arg10) (rowOf (J := 40) (V c main_v58)))

/-- The index maps over the grid: the aggregated array's window and the result's move together down the rows; the
    matrices and the bias rows are fetched whole. -/
theorem index_facts : ∀ t : Fin cfg3.N,
    win3_0.index t (0 : Fin 2) = win3_7.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (1 : Fin 2) = 0 :=
  (by decide +kernel : ∀ t : Fin grid3.N, _)

/-- Every block of rows is some point's. -/
theorem index_onto : ∀ r : Fin 25, ∃ t : Fin cfg3.N, win3_7.index t = ![r.val, 0] :=
  (by decide +kernel : ∀ r : Fin 25, ∃ t : Fin grid3.N, win3_7.index t = ![r.val, 0])

/-- WHAT POINT `t` WRITES BACK is block `t` of the region's function of the arrays it finds. -/
theorem flushed_eq (c : Dev nD) (t : Fin cfg3.N) :
    (dat3 V c).flushed 7 t = ((cfg3.win 7).blk t).view.read (Elt Ideal) (decoderArray V c) := by
  show (cfg3.win 7).cut (grid3.coords t) ((dat3 V c).after 7 t) = _
  rw [after3_7]
  unfold out3_7
  rw [View.canon_unit_zero zeros]
  simp only [View.ld_unit_zero (S := S4000x128) zeros, View.ld_unit_zero (S := S128x128) zeros,
    View.ld_unit_zero (S := S1x128) zeros, View.ld_unit_zero (S := S128x40) zeros, View.ld_unit_zero (S := S1x40) zeros]
  obtain ⟨e0, e1, e2, e3, e4, e5, e6, e7, e8, e9, e10, e11, e12, e13, e14⟩ := index_facts t
  funext j
  obtain ⟨p, q, rfl⟩ : ∃ (p : Fin 4000) (q : Fin 40), j = ix2 p q := ⟨j 0, j 1, eq_ix2 j⟩
  refine (decoder_body (iblk3 V c 0 t) (iblk3 V c 1 t) (iblk3 V c 2 t) (iblk3 V c 3 t) (iblk3 V c 4 t) (iblk3 V c 5 t)
    (iblk3 V c 6 t) p q).trans ?_
  -- the entry's place in the array: its row is the block's row, its column the block's column
  have hE : ((cfg3.win 7).blk t).view.emb (ix2 p q)
      = ix2 (n0 := 100000) ((((cfg3.win 7).blk t).view.emb (ix2 p q)) 0) q := by
    funext a; refine Fin.ext ?_
    match a with
    | ⟨0, _⟩ => rfl
    | ⟨1, _⟩ => show win3_7.index t (1 : Fin 2) * 40 + 1 * q.val = q.val; omega
  refine Eq.trans ?_ (congrArg (decoderArray V c) hE.symm)
  have r0 : ∀ k : Fin 128, iblk3 V c 0 t (ix2 p k)
      = V c main_v51 (ix2 (n0 := 100000) ((((cfg3.win 7).blk t).view.emb (ix2 p q)) 0) k) := fun k => by
    show V c main_v51 (((cfg3.win 0).blk t).view.emb (ix2 p k)) = _
    refine congrArg (V c main_v51) (funext fun a => Fin.ext ?_)
    match a with
    | ⟨0, _⟩ => show win3_0.index t (0 : Fin 2) * 4000 + 1 * p.val = win3_7.index t (0 : Fin 2) * 4000 + 1 * p.val; omega
    | ⟨1, _⟩ => show win3_0.index t (1 : Fin 2) * 128 + 1 * k.val = k.val; omega
  have r1 : ∀ (k k2 : Fin 128), iblk3 V c 1 t (ix2 k k2) = V c main_v53 (ix2 k k2) := fun k k2 => by
    show V c main_v53 (((cfg3.win 1).blk t).view.emb (ix2 k k2)) = _
    refine congrArg (V c main_v53) (funext fun a => Fin.ext ?_)
    match a with
    | ⟨0, _⟩ => show win3_1.index t (0 : Fin 2) * 128 + 1 * k.val = k.val; omega
    | ⟨1, _⟩ => show win3_1.index t (1 : Fin 2) * 128 + 1 * k2.val = k2.val; omega
  have r2 : ∀ k2 : Fin 128, iblk3 V c 2 t (ix2 (0 : Fin 1) k2) = V c main_v56 (ix2 (0 : Fin 1) k2) := fun k2 => by
    show V c main_v56 (((cfg3.win 2).blk t).view.emb (ix2 (0 : Fin 1) k2)) = _
    refine congrArg (V c main_v56) (funext fun a => Fin.ext ?_)
    match a with
    | ⟨0, _⟩ => show win3_2.index t (0 : Fin 2) * 1 + 1 * 0 = 0; omega
    | ⟨1, _⟩ => show win3_2.index t (1 : Fin 2) * 128 + 1 * k2.val = k2.val; omega
  have r3 : ∀ (k2 k3 : Fin 128), iblk3 V c 3 t (ix2 k2 k3) = V c main_arg8 (ix2 k2 k3) := fun k2 k3 => by
    show V c main_arg8 (((cfg3.win 3).blk t).view.emb (ix2 k2 k3)) = _
    refine congrArg (V c main_arg8) (funext fun a => Fin.ext ?_)
    match a with
    | ⟨0, _⟩ => show win3_3.index t (0 : Fin 2) * 128 + 1 * k2.val = k2.val; omega
    | ⟨1, _⟩ => show win3_3.index t (1 : Fin 2) * 128 + 1 * k3.val = k3.val; omega
  have r4 : ∀ k3 : Fin 128, iblk3 V c 4 t (ix2 (0 : Fin 1) k3) = V c main_v57 (ix2 (0 : Fin 1) k3) := fun k3 => by
    show V c main_v57 (((cfg3.win 4).blk t).view.emb (ix2 (0 : Fin 1) k3)) = _
    refine congrArg (V c main_v57) (funext fun a => Fin.ext ?_)
    match a with
    | ⟨0, _⟩ => show win3_4.index t (0 : Fin 2) * 1 + 1 * 0 = 0; omega
    | ⟨1, _⟩ => show win3_4.index t (1 : Fin 2) * 128 + 1 * k3.val = k3.val; omega
  have r5 : ∀ (k3 : Fin 128) (q' : Fin 40), iblk3 V c 5 t (ix2 k3 q') = V c main_arg10 (ix2 k3 q') := fun k3 q' => by
    show V c main_arg10 (((cfg3.win 5).blk t).view.emb (ix2 k3 q')) = _
    refine congrArg (V c main_arg10) (funext fun a => Fin.ext ?_)
    match a with
    | ⟨0, _⟩ => show win3_5.index t (0 : Fin 2) * 128 + 1 * k3.val = k3.val; omega
    | ⟨1, _⟩ => show win3_5.index t (1 : Fin 2) * 40 + 1 * q'.val = q'.val; omega
  have r6 : ∀ q' : Fin 40, iblk3 V c 6 t (ix2 (0 : Fin 1) q') = V c main_v58 (ix2 (0 : Fin 1) q') := fun q' => by
    show V c main_v58 (((cfg3.win 6).blk t).view.emb (ix2 (0 : Fin 1) q')) = _
    refine congrArg (V c main_v58) (funext fun a => Fin.ext ?_)
    match a with
    | ⟨0, _⟩ => show win3_6.index t (0 : Fin 2) * 1 + 1 * 0 = 0; omega
    | ⟨1, _⟩ => show win3_6.index t (1 : Fin 2) * 40 + 1 * q'.val = q'.val; omega
  unfold logitAt
  simp only [r0, r1, r2, r3, r4, r5, r6]
  rfl

/-- An index of the result is in point `t`'s block iff each coordinate is in the block's range on its axis. -/
theorem mem_blk (t : Fin cfg3.N) (i : S100000x40.Idx) :
    i ∈ ((cfg3.win 7).blk t).view.set ↔ ∀ a : Fin 2, win3_7.index t a * S4000x40.size a ≤ (i a).val
      ∧ (i a).val < win3_7.index t a * S4000x40.size a + S4000x40.size a := by
  show i ∈ ((View.whole main_v59).slice (win3_7.rect t)).set ↔ _
  rw [View.set_slice_whole, Rect.mem_set_unit]
  exact Iff.rfl

/-- The 25 blocks of 4000 rows tile the 100000 rows. -/
theorem cover (i : S100000x40.Idx) :
    ∃ t : Fin cfg3.N, (cfg3.win 7).flush t = true ∧ i ∈ ((cfg3.win 7).blk t).view.set := by
  have hi0 : (i 0).val < 100000 := (i 0).isLt
  have hi1 : (i 1).val < 40 := (i 1).isLt
  obtain ⟨t, ht⟩ := index_onto ⟨(i 0).val / 4000, by omega⟩
  have q0 : win3_7.index t (0 : Fin 2) = (i 0).val / 4000 := congrFun ht 0
  have q1 : win3_7.index t (1 : Fin 2) = 0 := congrFun ht 1
  refine ⟨t, flush3_7 t, ?_⟩
  rw [mem_blk]
  intro a
  match a with
  | ⟨0, _⟩ => show win3_7.index t (0 : Fin 2) * 4000 ≤ (i 0).val ∧ (i 0).val < win3_7.index t (0 : Fin 2) * 4000 + 4000; omega
  | ⟨1, _⟩ => show win3_7.index t (1 : Fin 2) * 40 ≤ (i 1).val ∧ (i 1).val < win3_7.index t (1 : Fin 2) * 40 + 40; omega

/-- THE RESULT after the region: the region's function of the arrays it found. -/
theorem array_eq (c : Dev nD) : (dat3 V c).arrAt 7 cfg3.N = decoderArray V c :=
  (dat3 V c).arrAt_eq_of_cover 7 (decoderArray V c) (fun t _ => flushed_eq V c t) cover

end Cert.KernelIdeal.Decoder

end
-- ==== Proof.KernelValue.lean ====
/-
  The kernel's result as one function of its arguments.

  Between the four regions @main runs four stretches of host operations: the first cuts the edge list into its source
  and destination rows and lays two bias vectors out as rows; each of the next three sends the previous region's
  array along the edges (a gather of source rows, summed into destination rows) and cuts the round's matrix and bias
  out of the stacked arguments; the last also lays out the decoder's two bias vectors. Buffers a stretch or a region
  does not write keep their contents. Walking the boundaries from the launch to the return, with each region's
  array from the modules before, the result is: the encoder of the input features, three rounds of
  travel–dense–rectify, the decoder's two dense layers and the log-softmax of each row — all over the argument
  arrays alone.
-/
import proofs.«109249_j70978629534135_2_alg».proof.Proof.KernelRun
import proofs.«109249_j70978629534135_2_alg».proof.Proof.Encoder
import proofs.«109249_j70978629534135_2_alg».proof.Proof.Round1
import proofs.«109249_j70978629534135_2_alg».proof.Proof.Round2
import proofs.«109249_j70978629534135_2_alg».proof.Proof.Decoder

set_option maxRecDepth 16384
set_option maxHeartbeats 4000000

noncomputable section

namespace Cert.KernelIdeal.Whole

open Cert.KernelIdeal Cert.KernelIdeal.Gen Cert.Gnn
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-! ## Buffers nobody writes keep their contents -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W7_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W7_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W2_v1 (c : Dev nD) : W2 m ρ c (Proc.devRef .tc main_v1) = W1 m ρ c (Proc.devRef .tc main_v1) :=
  W2_of_ne m ρ c main_v1 (by decide)
theorem W4_v1 (c : Dev nD) : W4 m ρ c (Proc.devRef .tc main_v1) = W1 m ρ c (Proc.devRef .tc main_v1) :=
  (W4_of_ne m ρ c main_v1 (by decide)).trans (Eq.trans
    (StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    (W2_v1 m ρ c))
theorem W6_v1 (c : Dev nD) : W6 m ρ c (Proc.devRef .tc main_v1) = W1 m ρ c (Proc.devRef .tc main_v1) :=
  (W6_of_ne m ρ c main_v1 (by decide)).trans (Eq.trans
    (StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    (W4_v1 m ρ c))
theorem W2_v3 (c : Dev nD) : W2 m ρ c (Proc.devRef .tc main_v3) = W1 m ρ c (Proc.devRef .tc main_v3) :=
  W2_of_ne m ρ c main_v3 (by decide)
theorem W4_v3 (c : Dev nD) : W4 m ρ c (Proc.devRef .tc main_v3) = W1 m ρ c (Proc.devRef .tc main_v3) :=
  (W4_of_ne m ρ c main_v3 (by decide)).trans (Eq.trans
    (StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    (W2_v3 m ρ c))
theorem W6_v3 (c : Dev nD) : W6 m ρ c (Proc.devRef .tc main_v3) = W1 m ρ c (Proc.devRef .tc main_v3) :=
  (W6_of_ne m ρ c main_v3 (by decide)).trans (Eq.trans
    (StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    (W4_v3 m ρ c))

/-! ## The pieces the host stretches cut out of the arguments -/

/-- The edges' source row of the edge list. -/
def rawSrc (x1 : (⟨S2x600000, .i32⟩ : BufTy).Contents (Elt Ideal)) : (⟨S600000, .i32⟩ : BufTy).Contents (Elt Ideal) :=
  shapeCast S600000 (extractStridedSlice S1x600000 ![0, 0] x1 slices_S2x600000_S1x600000_0_0) shapeCasts_S1x600000_S600000
/-- The edges' destination row of the edge list. -/
def rawDst (x1 : (⟨S2x600000, .i32⟩ : BufTy).Contents (Elt Ideal)) : (⟨S600000, .i32⟩ : BufTy).Contents (Elt Ideal) :=
  shapeCast S600000 (extractStridedSlice S1x600000 ![1, 0] x1 slices_S2x600000_S1x600000_1_0) shapeCasts_S1x600000_S600000
/-- The gather's start indices: a negative source index counted from the end, as one column. -/
def srcOf (v1 : (⟨S600000, .i32⟩ : BufTy).Contents (Elt Ideal)) : (⟨S600000x1, .i32⟩ : BufTy).Contents (Elt Ideal) :=
  broadcastInDim S600000x1 ![0] bcast_S600000_S600000x1_0
    (select (cmpi .slt v1 (broadcastInDim S600000 ![] bcast_S_S600000 (constantI S_ 32 0#32)))
      (addi v1 (broadcastInDim S600000 ![] bcast_S_S600000 (constantI S_ 32 100000#32))) v1)
/-- The scatter's indices: the destination indices as one column. -/
def dstOf (v3 : (⟨S600000, .i32⟩ : BufTy).Contents (Elt Ideal)) : (⟨S600000x1, .i32⟩ : BufTy).Contents (Elt Ideal) :=
  broadcastInDim S600000x1 ![0] bcast_S600000_S600000x1_0 v3
/-- One round's traffic as the host runs it: gather the source rows, widen them, sum them into the destination rows of
    a zero array. -/
def travel (v1 v3 : (⟨S600000, .i32⟩ : BufTy).Contents (Elt Ideal)) (h : (⟨S100000x128, .bf16⟩ : BufTy).Contents (Elt Ideal)) :
    (⟨S100000x128, .f32⟩ : BufTy).Contents (Elt Ideal) :=
  Host.scatterAdd (F := Ideal) scatter_S100000x128_S600000x1_S600000x128_1_0_0_1
    (broadcastInDim S100000x128 ![] bcast_S_S100000x128 (constant (F := Ideal) S_ .f32 0x00000000#32)) (dstOf v3)
    (extf (F := Ideal) .f32 (Host.gather gather_S100000x128_S600000x1_S600000x128_1_0_n_n_0_1_1128 h (srcOf v1)) bitsLt_bf16_f32)
/-- Round `r`'s matrix, cut out of the stack of three. -/
def roundMatrix0 (x6 : (⟨S3x128x128, .f32⟩ : BufTy).Contents (Elt Ideal)) : (⟨S128x128, .f32⟩ : BufTy).Contents (Elt Ideal) :=
  shapeCast S128x128 (extractStridedSlice S1x128x128 ![0, 0, 0] x6 slices_S3x128x128_S1x128x128_0_0_0) shapeCasts_S1x128x128_S128x128
def roundMatrix1 (x6 : (⟨S3x128x128, .f32⟩ : BufTy).Contents (Elt Ideal)) : (⟨S128x128, .f32⟩ : BufTy).Contents (Elt Ideal) :=
  shapeCast S128x128 (extractStridedSlice S1x128x128 ![1, 0, 0] x6 slices_S3x128x128_S1x128x128_1_0_0) shapeCasts_S1x128x128_S128x128
def roundMatrix2 (x6 : (⟨S3x128x128, .f32⟩ : BufTy).Contents (Elt Ideal)) : (⟨S128x128, .f32⟩ : BufTy).Contents (Elt Ideal) :=
  shapeCast S128x128 (extractStridedSlice S1x128x128 ![2, 0, 0] x6 slices_S3x128x128_S1x128x128_2_0_0) shapeCasts_S1x128x128_S128x128
/-- Round `r`'s bias, cut out of the stack of three. -/
def roundBias0 (x7 : (⟨S3x128, .f32⟩ : BufTy).Contents (Elt Ideal)) : (⟨S128, .f32⟩ : BufTy).Contents (Elt Ideal) :=
  shapeCast S128 (extractStridedSlice S1x128 ![0, 0] x7 slices_S3x128_S1x128_0_0) shapeCasts_S1x128_S128
def roundBias1 (x7 : (⟨S3x128, .f32⟩ : BufTy).Contents (Elt Ideal)) : (⟨S128, .f32⟩ : BufTy).Contents (Elt Ideal) :=
  shapeCast S128 (extractStridedSlice S1x128 ![1, 0] x7 slices_S3x128_S1x128_1_0) shapeCasts_S1x128_S128
def roundBias2 (x7 : (⟨S3x128, .f32⟩ : BufTy).Contents (Elt Ideal)) : (⟨S128, .f32⟩ : BufTy).Contents (Elt Ideal) :=
  shapeCast S128 (extractStridedSlice S1x128 ![2, 0] x7 slices_S3x128_S1x128_2_0) shapeCasts_S1x128_S128

/-- The host's traffic is the layers module's: a zero array is zero everywhere and widening is the identity. -/
theorem travel_eq (v1 v3 : (⟨S600000, .i32⟩ : BufTy).Contents (Elt Ideal)) (h : (⟨S100000x128, .bf16⟩ : BufTy).Contents (Elt Ideal)) :
    travel v1 v3 h
      = aggregate gather_S100000x128_S600000x1_S600000x128_1_0_n_n_0_1_1128_wf scatter_S100000x128_S600000x1_S600000x128_1_0_0_1_wf
          (srcOf v1) (dstOf v3) h := by
  have hz : (broadcastInDim S100000x128 ![] bcast_S_S100000x128 (constant (F := Ideal) S_ .f32 0x00000000#32)
      : S100000x128.Idx → EReal) = fun _ => 0 := by
    funext i; rw [bcast_scalar_apply]; exact Ideal.ofBits_zero_f32
  unfold travel aggregate
  show Ideal.hostScatterAdd scatter_S100000x128_S600000x1_S600000x128_1_0_0_1
      (broadcastInDim S100000x128 ![] bcast_S_S100000x128 (constant (F := Ideal) S_ .f32 0x00000000#32)) (dstOf v3)
      (Host.gather gather_S100000x128_S600000x1_S600000x128_1_0_n_n_0_1_1128 h (srcOf v1)) = _
  rw [hz]
  rfl

/-- A vector laid out as one row, read back as a vector. -/
theorem rowOf_cast {J : ℕ} (b : (⟨1, ![J]⟩ : Shape).Idx → EReal) (h : (⟨1, ![J]⟩ : Shape).ShapeCasts ⟨2, ![1, J]⟩) :
    rowOf (J := J) (shapeCast ⟨2, ![1, J]⟩ b h) = b := by
  funext j
  obtain ⟨k, rfl⟩ : ∃ k : Fin J, j = ix1 k := ⟨j 0, eq_ix1 j⟩
  exact shapeCast_a_1a_apply b h (0 : Fin 1) k

/-! ## What each stretch hands the next region -/

theorem first_v1 (c : Dev nD) : W1 m ρ c (Proc.devRef .tc main_v1) = rawSrc (m ((c : Thread nD τ).loc main_arg1)) := by
  show StableHlo.after hostOps0 (W0 m ρ c) (Proc.devRef .tc main_v1) = _
  unfold rawSrc; dsimp only [hostOps0]; after_results; rfl
theorem first_v3 (c : Dev nD) : W1 m ρ c (Proc.devRef .tc main_v3) = rawDst (m ((c : Thread nD τ).loc main_arg1)) := by
  show StableHlo.after hostOps0 (W0 m ρ c) (Proc.devRef .tc main_v3) = _
  unfold rawDst; dsimp only [hostOps0]; after_results; rfl
theorem first_v4 (c : Dev nD) :
    W1 m ρ c (Proc.devRef .tc main_v4) = shapeCast S1x256 (m ((c : Thread nD τ).loc main_arg3)) shapeCasts_S256_S1x256 := by
  show StableHlo.after hostOps0 (W0 m ρ c) (Proc.devRef .tc main_v4) = _
  dsimp only [hostOps0]; after_results; rfl
theorem first_v5 (c : Dev nD) :
    W1 m ρ c (Proc.devRef .tc main_v5) = shapeCast S1x128 (m ((c : Thread nD τ).loc main_arg5)) shapeCasts_S128_S1x128 := by
  show StableHlo.after hostOps0 (W0 m ρ c) (Proc.devRef .tc main_v5) = _
  dsimp only [hostOps0]; after_results; rfl

theorem second_v17 (c : Dev nD) : W3 m ρ c (Proc.devRef .tc main_v17)
    = travel (W2 m ρ c (Proc.devRef .tc main_v1)) (W2 m ρ c (Proc.devRef .tc main_v3)) (W2 m ρ c (Proc.devRef .tc main_v6)) := by
  show StableHlo.after hostOps1 (W2 m ρ c) (Proc.devRef .tc main_v17) = _
  unfold travel srcOf dstOf; dsimp only [hostOps1]; after_results
theorem second_v19 (c : Dev nD) : W3 m ρ c (Proc.devRef .tc main_v19) = roundMatrix0 (W2 m ρ c (Proc.devRef .tc main_arg6)) := by
  show StableHlo.after hostOps1 (W2 m ρ c) (Proc.devRef .tc main_v19) = _
  unfold roundMatrix0; dsimp only [hostOps1]; after_results; rfl
theorem second_v22 (c : Dev nD) : W3 m ρ c (Proc.devRef .tc main_v22)
    = shapeCast S1x128 (roundBias0 (W2 m ρ c (Proc.devRef .tc main_arg7))) shapeCasts_S128_S1x128 := by
  show StableHlo.after hostOps1 (W2 m ρ c) (Proc.devRef .tc main_v22) = _
  unfold roundBias0; dsimp only [hostOps1]; after_results; rfl

theorem third_v34 (c : Dev nD) : W5 m ρ c (Proc.devRef .tc main_v34)
    = travel (W4 m ρ c (Proc.devRef .tc main_v1)) (W4 m ρ c (Proc.devRef .tc main_v3)) (W4 m ρ c (Proc.devRef .tc main_v23)) := by
  show StableHlo.after hostOps2 (W4 m ρ c) (Proc.devRef .tc main_v34) = _
  unfold travel srcOf dstOf; dsimp only [hostOps2]; after_results
theorem third_v36 (c : Dev nD) : W5 m ρ c (Proc.devRef .tc main_v36) = roundMatrix1 (W4 m ρ c (Proc.devRef .tc main_arg6)) := by
  show StableHlo.after hostOps2 (W4 m ρ c) (Proc.devRef .tc main_v36) = _
  unfold roundMatrix1; dsimp only [hostOps2]; after_results; rfl
theorem third_v39 (c : Dev nD) : W5 m ρ c (Proc.devRef .tc main_v39)
    = shapeCast S1x128 (roundBias1 (W4 m ρ c (Proc.devRef .tc main_arg7))) shapeCasts_S128_S1x128 := by
  show StableHlo.after hostOps2 (W4 m ρ c) (Proc.devRef .tc main_v39) = _
  unfold roundBias1; dsimp only [hostOps2]; after_results; rfl

theorem fourth_v51 (c : Dev nD) : W7 m ρ c (Proc.devRef .tc main_v51)
    = travel (W6 m ρ c (Proc.devRef .tc main_v1)) (W6 m ρ c (Proc.devRef .tc main_v3)) (W6 m ρ c (Proc.devRef .tc main_v40)) := by
  show StableHlo.after hostOps3 (W6 m ρ c) (Proc.devRef .tc main_v51) = _
  unfold travel srcOf dstOf; dsimp only [hostOps3]; after_results
theorem fourth_v53 (c : Dev nD) : W7 m ρ c (Proc.devRef .tc main_v53) = roundMatrix2 (W6 m ρ c (Proc.devRef .tc main_arg6)) := by
  show StableHlo.after hostOps3 (W6 m ρ c) (Proc.devRef .tc main_v53) = _
  unfold roundMatrix2; dsimp only [hostOps3]; after_results; rfl
theorem fourth_v56 (c : Dev nD) : W7 m ρ c (Proc.devRef .tc main_v56)
    = shapeCast S1x128 (roundBias2 (W6 m ρ c (Proc.devRef .tc main_arg7))) shapeCasts_S128_S1x128 := by
  show StableHlo.after hostOps3 (W6 m ρ c) (Proc.devRef .tc main_v56) = _
  unfold roundBias2; dsimp only [hostOps3]; after_results; rfl
theorem fourth_v57 (c : Dev nD) : W7 m ρ c (Proc.devRef .tc main_v57)
    = shapeCast S1x128 (W6 m ρ c (Proc.devRef .tc main_arg9)) shapeCasts_S128_S1x128 := by
  show StableHlo.after hostOps3 (W6 m ρ c) (Proc.devRef .tc main_v57) = _
  dsimp only [hostOps3]; after_results; rfl
theorem fourth_v58 (c : Dev nD) : W7 m ρ c (Proc.devRef .tc main_v58)
    = shapeCast S1x40 (W6 m ρ c (Proc.devRef .tc main_arg11)) shapeCasts_S40_S1x40 := by
  show StableHlo.after hostOps3 (W6 m ρ c) (Proc.devRef .tc main_v58) = _
  dsimp only [hostOps3]; after_results; rfl

/-! ## From the launch to the return -/

/-- The gather's and the scatter's index columns, from the edge list. -/
def sources (c : Dev nD) : (⟨S600000x1, .i32⟩ : BufTy).Contents (Elt Ideal) := srcOf (rawSrc (m ((c : Thread nD τ).loc main_arg1)))
def destinations (c : Dev nD) : (⟨S600000x1, .i32⟩ : BufTy).Contents (Elt Ideal) := dstOf (rawDst (m ((c : Thread nD τ).loc main_arg1)))

/-- The encoder of the input features. -/
def encoded (c : Dev nD) : S100000x128.Idx → EReal :=
  dense (N := 100000) (K := 256) (J := 128)
    (relu (dense (N := 100000) (K := 128) (J := 256) (m ((c : Thread nD τ).loc main_arg0)) (m ((c : Thread nD τ).loc main_arg2)) (m ((c : Thread nD τ).loc main_arg3))))
    (m ((c : Thread nD τ).loc main_arg4)) (m ((c : Thread nD τ).loc main_arg5))

/-- The node features after the first and after the second round. -/
def hidden1 (c : Dev nD) : S100000x128.Idx → EReal :=
  roundKernel gather_S100000x128_S600000x1_S600000x128_1_0_n_n_0_1_1128_wf scatter_S100000x128_S600000x1_S600000x128_1_0_0_1_wf (sources m c) (destinations m c) (encoded m c) (roundMatrix0 (m ((c : Thread nD τ).loc main_arg6))) (roundBias0 (m ((c : Thread nD τ).loc main_arg7)))
def hidden2 (c : Dev nD) : S100000x128.Idx → EReal :=
  roundKernel gather_S100000x128_S600000x1_S600000x128_1_0_n_n_0_1_1128_wf scatter_S100000x128_S600000x1_S600000x128_1_0_0_1_wf (sources m c) (destinations m c) (hidden1 m c) (roundMatrix1 (m ((c : Thread nD τ).loc main_arg6))) (roundBias1 (m ((c : Thread nD τ).loc main_arg7)))

/-- THE KERNEL'S RESULT: the third round, the decoder's two dense layers, the log-softmax of each row. -/
def result (c : Dev nD) : S100000x40.Idx → EReal :=
  logSoftmax (N := 100000) (J := 40)
    (dense (N := 100000) (K := 128) (J := 40)
      (relu (dense (N := 100000) (K := 128) (J := 128)
        (roundKernel gather_S100000x128_S600000x1_S600000x128_1_0_n_n_0_1_1128_wf scatter_S100000x128_S600000x1_S600000x128_1_0_0_1_wf (sources m c) (destinations m c) (hidden2 m c) (roundMatrix2 (m ((c : Thread nD τ).loc main_arg6))) (roundBias2 (m ((c : Thread nD τ).loc main_arg7))))
        (m ((c : Thread nD τ).loc main_arg8)) (m ((c : Thread nD τ).loc main_arg9))))
      (m ((c : Thread nD τ).loc main_arg10)) (m ((c : Thread nD τ).loc main_arg11)))

theorem after_encoder (c : Dev nD) : W2 m ρ c (Proc.devRef .tc main_v6) = encoded m c := by
  refine (W2_arr m ρ c 5).trans ((Encoder.array_eq (V1 m ρ) c).trans ?_)
  show dense (N := 100000) (K := 256) (J := 128)
      (relu (dense (N := 100000) (K := 128) (J := 256) (W1 m ρ c (Proc.devRef .tc main_arg0)) (W1 m ρ c (Proc.devRef .tc main_arg2))
        (rowOf (J := 256) (W1 m ρ c (Proc.devRef .tc main_v4)))))
      (W1 m ρ c (Proc.devRef .tc main_arg4)) (rowOf (J := 128) (W1 m ρ c (Proc.devRef .tc main_v5))) = _
  rw [W1_arg0 m ρ c, W1_arg2 m ρ c, W1_arg4 m ρ c, first_v4 m ρ c, first_v5 m ρ c, rowOf_cast, rowOf_cast]
  rfl

theorem after_round1 (c : Dev nD) : W4 m ρ c (Proc.devRef .tc main_v23) = hidden1 m c := by
  refine (W4_arr m ρ c 3).trans ((Round1.array_eq (V3 m ρ) c).trans ?_)
  show relu (dense (N := 100000) (K := 128) (J := 128) (W3 m ρ c (Proc.devRef .tc main_v17)) (W3 m ρ c (Proc.devRef .tc main_v19))
      (rowOf (J := 128) (W3 m ρ c (Proc.devRef .tc main_v22)))) = _
  rw [second_v17 m ρ c, second_v19 m ρ c, second_v22 m ρ c, rowOf_cast, W2_v1 m ρ c, W2_v3 m ρ c, first_v1 m ρ c, first_v3 m ρ c,
    after_encoder m ρ c, W2_arg6 m ρ c, W2_arg7 m ρ c, travel_eq]
  rfl

theorem after_round2 (c : Dev nD) : W6 m ρ c (Proc.devRef .tc main_v40) = hidden2 m c := by
  refine (W6_arr m ρ c 3).trans ((Round2.array_eq (V5 m ρ) c).trans ?_)
  show relu (dense (N := 100000) (K := 128) (J := 128) (W5 m ρ c (Proc.devRef .tc main_v34)) (W5 m ρ c (Proc.devRef .tc main_v36))
      (rowOf (J := 128) (W5 m ρ c (Proc.devRef .tc main_v39)))) = _
  rw [third_v34 m ρ c, third_v36 m ρ c, third_v39 m ρ c, rowOf_cast, W4_v1 m ρ c, W4_v3 m ρ c, first_v1 m ρ c, first_v3 m ρ c,
    after_round1 m ρ c, W4_arg6 m ρ c, W4_arg7 m ρ c, travel_eq]
  rfl

/-- The result buffer after the run is `result` of the arguments. -/
theorem kernel_result (c : Dev nD) : W8 m ρ c (Proc.devRef .tc main_v59) = result m c := by
  refine (Result.result_is_region3 m ρ c).trans ((Decoder.array_eq (V7 m ρ) c).trans ?_)
  show logSoftmax (N := 100000) (J := 40)
    (dense (N := 100000) (K := 128) (J := 40)
      (relu (dense (N := 100000) (K := 128) (J := 128)
        (relu (dense (N := 100000) (K := 128) (J := 128) (W7 m ρ c (Proc.devRef .tc main_v51)) (W7 m ρ c (Proc.devRef .tc main_v53))
          (rowOf (J := 128) (W7 m ρ c (Proc.devRef .tc main_v56)))))
        (W7 m ρ c (Proc.devRef .tc main_arg8)) (rowOf (J := 128) (W7 m ρ c (Proc.devRef .tc main_v57)))))
      (W7 m ρ c (Proc.devRef .tc main_arg10)) (rowOf (J := 40) (W7 m ρ c (Proc.devRef .tc main_v58)))) = _
  rw [fourth_v51 m ρ c, fourth_v53 m ρ c, fourth_v56 m ρ c, fourth_v57 m ρ c, fourth_v58 m ρ c, rowOf_cast, rowOf_cast, rowOf_cast,
    W6_v1 m ρ c, W6_v3 m ρ c, first_v1 m ρ c, first_v3 m ρ c, after_round2 m ρ c, W6_arg6 m ρ c, W6_arg7 m ρ c, W6_arg9 m ρ c,
    W6_arg11 m ρ c, W7_arg8 m ρ c, W7_arg10 m ρ c, travel_eq]
  rfl

/-- THE KERNEL'S RUN, READ: every weakly fair execution terminates with the result buffer at `result` of the arguments and
    the arguments as launched. -/
theorem run : θ_run defs (onTc (τ := τ) (main (F := Ideal))) ⟨m, fun _ => 0, ρ⟩ (fun r => ∀ c : Dev nD,
      r.2.mem ((c.tc : Thread nD τ).loc main_v59) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (kernel_result m ρ c), (h c).2⟩) (Result.run_result m ρ)

end Cert.KernelIdeal.Whole

end
-- ==== Proof.RefStages.lean ====
/-
  The reference's line of host operations, cut into five stretches, and the host's stages by name.

  The reference is one straight line of 113 host operations: the encoder (the first 15), three rounds of message
  passing (24 each), the decoder with its log-softmax (the last 26). Running the line is running the stretches one
  after the other. The stages a stretch is made of — rows times a matrix, a bias added to every row, the rectifier,
  a round's traffic along the edges, the log-softmax of each row — are named here in the host's own operations.
-/
import proofs.«109249_j70978629534135_2_alg».proof.Proof.ReferenceRun
import proofs.«109249_j70978629534135_2_alg».proof.Proof.Layers

noncomputable section

namespace Cert.ReferenceIdeal.Whole

open Cert.ReferenceIdeal Cert.ReferenceIdeal.Gen Cert.ReferenceIdeal.ValueP Cert.Gnn
open Idealize.ShloMosaic Idealize.ShloMosaic.TcCoe Idealize.ShloMosaic.ValueIdx Idealize.ShloMosaic.StableHlo Idealize.SL.Sem

/-! ## The line in five stretches -/

/-- Any list is its first 15 entries, then three runs of 24, then the rest. -/
theorem split5 {α : Type} (l : List α) :
    l = l.take 15 ++ ((l.drop 15).take 24 ++ ((l.drop 39).take 24 ++ ((l.drop 63).take 24 ++ l.drop 87))) := by
  have e3 : (l.drop 63).take 24 ++ l.drop 87 = l.drop 63 := by
    rw [show l.drop 87 = (l.drop 63).drop 24 by rw [List.drop_drop]]; exact List.take_append_drop 24 _
  have e2 : (l.drop 39).take 24 ++ l.drop 63 = l.drop 39 := by
    rw [show l.drop 63 = (l.drop 39).drop 24 by rw [List.drop_drop]]; exact List.take_append_drop 24 _
  have e1 : (l.drop 15).take 24 ++ l.drop 39 = l.drop 15 := by
    rw [show l.drop 39 = (l.drop 15).drop 24 by rw [List.drop_drop]]; exact List.take_append_drop 24 _
  rw [e3, e2, e1, List.take_append_drop]

/-- Contents moved to a buffer's own type and straight back are themselves. -/
theorem ofBuf_toBuf {T : BufTy} (x : TRef sig T) (v : T.Contents (Elt Ideal)) : x.ofBuf (x.toBuf v) = v := by
  unfold TRef.ofBuf TRef.toBuf; simp

theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The whole line is its five stretches run one after the other. -/
theorem after_ops (V : Valuation τ sig (Elt Ideal)) :
    after (ops (F := Ideal)) V
      = after ((ops (F := Ideal)).drop 87) (after (((ops (F := Ideal)).drop 63).take 24) (after (((ops (F := Ideal)).drop 39).take 24) (after (((ops (F := Ideal)).drop 15).take 24) (after ((ops (F := Ideal)).take 15) V)))) := by
  rw [← after_append, ← after_append, ← after_append, ← after_append]
  exact congrArg (fun l => after l V) (split5 (ops (F := Ideal)))

/-! ## The host's stages -/

/-- The edges' source and destination rows of the edge list. -/
def rawSrc (x1 : (⟨S2x600000, .i32⟩ : BufTy).Contents (Elt Ideal)) : (⟨S600000, .i32⟩ : BufTy).Contents (Elt Ideal) :=
  shapeCast S600000 (extractStridedSlice S1x600000 ![0, 0] x1 slices_S2x600000_S1x600000_0_0) shapeCasts_S1x600000_S600000
def rawDst (x1 : (⟨S2x600000, .i32⟩ : BufTy).Contents (Elt Ideal)) : (⟨S600000, .i32⟩ : BufTy).Contents (Elt Ideal) :=
  shapeCast S600000 (extractStridedSlice S1x600000 ![1, 0] x1 slices_S2x600000_S1x600000_1_0) shapeCasts_S1x600000_S600000
/-- The gather's start indices: a negative source index counted from the end, as one column. -/
def srcOf (v1 : (⟨S600000, .i32⟩ : BufTy).Contents (Elt Ideal)) : (⟨S600000x1, .i32⟩ : BufTy).Contents (Elt Ideal) :=
  broadcastInDim S600000x1 ![0] bcast_S600000_S600000x1_0
    (select (cmpi .slt v1 (broadcastInDim S600000 ![] bcast_S_S600000 (constantI S_ 32 0#32)))
      (addi v1 (broadcastInDim S600000 ![] bcast_S_S600000 (constantI S_ 32 100000#32))) v1)
/-- The scatter's indices: the destination indices as one column. -/
def dstOf (v3 : (⟨S600000, .i32⟩ : BufTy).Contents (Elt Ideal)) : (⟨S600000x1, .i32⟩ : BufTy).Contents (Elt Ideal) :=
  broadcastInDim S600000x1 ![0] bcast_S600000_S600000x1_0 v3
/-- One round's traffic: gather the source rows, sum them into the destination rows of a zero array. -/
def travel (v1 v3 : (⟨S600000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) scatter_S100000x128_S600000x1_S600000x128_1_0_0_1
    (broadcastInDim S100000x128 ![] bcast_S_S100000x128 (constant (F := Ideal) S_ .f32 0x00000000#32)) (dstOf v3)
    (Host.gather gather_S100000x128_S600000x1_S600000x128_1_0_n_n_0_1_1128 h (srcOf v1))
/-- Round `r`'s matrix and bias, cut out of the stacks of three. -/
def roundMatrix0 (x6 : (⟨S3x128x128, .f32⟩ : BufTy).Contents (Elt Ideal)) : (⟨S128x128, .f32⟩ : BufTy).Contents (Elt Ideal) :=
  shapeCast S128x128 (extractStridedSlice S1x128x128 ![0, 0, 0] x6 slices_S3x128x128_S1x128x128_0_0_0) shapeCasts_S1x128x128_S128x128
def roundMatrix1 (x6 : (⟨S3x128x128, .f32⟩ : BufTy).Contents (Elt Ideal)) : (⟨S128x128, .f32⟩ : BufTy).Contents (Elt Ideal) :=
  shapeCast S128x128 (extractStridedSlice S1x128x128 ![1, 0, 0] x6 slices_S3x128x128_S1x128x128_1_0_0) shapeCasts_S1x128x128_S128x128
def roundMatrix2 (x6 : (⟨S3x128x128, .f32⟩ : BufTy).Contents (Elt Ideal)) : (⟨S128x128, .f32⟩ : BufTy).Contents (Elt Ideal) :=
  shapeCast S128x128 (extractStridedSlice S1x128x128 ![2, 0, 0] x6 slices_S3x128x128_S1x128x128_2_0_0) shapeCasts_S1x128x128_S128x128
def roundBias0 (x7 : (⟨S3x128, .f32⟩ : BufTy).Contents (Elt Ideal)) : (⟨S128, .f32⟩ : BufTy).Contents (Elt Ideal) :=
  shapeCast S128 (extractStridedSlice S1x128 ![0, 0] x7 slices_S3x128_S1x128_0_0) shapeCasts_S1x128_S128
def roundBias1 (x7 : (⟨S3x128, .f32⟩ : BufTy).Contents (Elt Ideal)) : (⟨S128, .f32⟩ : BufTy).Contents (Elt Ideal) :=
  shapeCast S128 (extractStridedSlice S1x128 ![1, 0] x7 slices_S3x128_S1x128_1_0) shapeCasts_S1x128_S128
def roundBias2 (x7 : (⟨S3x128, .f32⟩ : BufTy).Contents (Elt Ideal)) : (⟨S128, .f32⟩ : BufTy).Contents (Elt Ideal) :=
  shapeCast S128 (extractStridedSlice S1x128 ![2, 0] x7 slices_S3x128_S1x128_2_0) shapeCasts_S1x128_S128

/-- Rows times a matrix, on the host, at the four pairs of extents the program uses. -/
def mul128x256 (a : FVec Ideal S100000x128 .f32) (w : FVec Ideal S128x256 .f32) : FVec Ideal S100000x256 .f32 :=
  Host.dotGeneral dot_S100000x128_S128x256_S100000x256_1_0_0_1_n_n none a w
def mul256x128 (a : FVec Ideal S100000x256 .f32) (w : FVec Ideal S256x128 .f32) : FVec Ideal S100000x128 .f32 :=
  Host.dotGeneral dot_S100000x256_S256x128_S100000x128_1_0_0_1_n_n none a w
def mul128x128 (a : FVec Ideal S100000x128 .f32) (w : FVec Ideal S128x128 .f32) : FVec Ideal S100000x128 .f32 :=
  Host.dotGeneral dot_S100000x128_S128x128_S100000x128_1_0_0_1_n_n none a w
def mul128x40 (a : FVec Ideal S100000x128 .f32) (w : FVec Ideal S128x40 .f32) : FVec Ideal S100000x40 .f32 :=
  Host.dotGeneral dot_S100000x128_S128x40_S100000x40_1_0_0_1_n_n none a w
/-- A bias vector added to every row, on the host. -/
def add256 (a : FVec Ideal S100000x256 .f32) (b : FVec Ideal S256 .f32) : FVec Ideal S100000x256 .f32 :=
  addf a (broadcastInDim S100000x256 ![0, 1] bcast_S1x256_S100000x256_0_1 (broadcastInDim S1x256 ![1] bcast_S256_S1x256_1 b))
def add128 (a : FVec Ideal S100000x128 .f32) (b : FVec Ideal S128 .f32) : FVec Ideal S100000x128 .f32 :=
  addf a (broadcastInDim S100000x128 ![0, 1] bcast_S1x128_S100000x128_0_1 (broadcastInDim S1x128 ![1] bcast_S128_S1x128_1 b))
def add40 (a : FVec Ideal S100000x40 .f32) (b : FVec Ideal S40 .f32) : FVec Ideal S100000x40 .f32 :=
  addf a (broadcastInDim S100000x40 ![0, 1] bcast_S1x40_S100000x40_0_1 (broadcastInDim S1x40 ![1] bcast_S40_S1x40_1 b))
/-- The rectifier, on the host: the maximum with a zero array. -/
def relu256 (a : FVec Ideal S100000x256 .f32) : FVec Ideal S100000x256 .f32 :=
  maximumf a (broadcastInDim S100000x256 ![] bcast_S_S100000x256 (constant (F := Ideal) S_ .f32 0x00000000#32))
def relu128 (a : FVec Ideal S100000x128 .f32) : FVec Ideal S100000x128 .f32 :=
  maximumf a (broadcastInDim S100000x128 ![] bcast_S_S100000x128 (constant (F := Ideal) S_ .f32 0x00000000#32))
/-- Each row's maximum, from `-∞`, as jax's `log_softmax` takes it. -/
def rowMaxima (z : FVec Ideal S100000x40 .f32) : FVec Ideal S100000 .f32 :=
  maximumf (broadcastInDim S100000 ![] bcast_S_S100000 (constant (F := Ideal) S_ .f32 0xFF800000#32))
    (Host.reduce FloatOps.maximumf z (constant (F := Ideal) S_ .f32 0xFF800000#32) reducesTo_S100000x40_S100000_d1 h_S_)
/-- Each entry less its row's maximum. -/
def shifted (z : FVec Ideal S100000x40 .f32) : FVec Ideal S100000x40 .f32 :=
  subf z (broadcastInDim S100000x40 ![0, 1] bcast_S100000x1_S100000x40_0_1
    (broadcastInDim S100000x1 ![0] bcast_S100000_S100000x1_0 (rowMaxima z)))
/-- The host's log-softmax of each row. -/
def logSoftmaxHost (z : FVec Ideal S100000x40 .f32) : FVec Ideal S100000x40 .f32 :=
  subf (shifted z) (broadcastInDim S100000x40 ![0, 1] bcast_S100000x1_S100000x40_0_1
    (Host.log (broadcastInDim S100000x1 ![0] bcast_S100000_S100000x1_0
      (Host.reduceAdd (Host.exp (shifted z)) (constant (F := Ideal) S_ .f32 0x00000000#32) reducesTo_S100000x40_S100000_d1 h_S_))))

end Cert.ReferenceIdeal.Whole

end
-- ==== Proof.RefStretch0.lean ====
/-
  The reference's first stretch: the edge list cut into its two rows, and the encoder.
-/
import proofs.«109249_j70978629534135_2_alg».proof.Proof.RefStages

set_option maxRecDepth 65536
set_option maxHeartbeats 8000000

noncomputable section

namespace Cert.ReferenceIdeal.Whole

open Cert.ReferenceIdeal Cert.ReferenceIdeal.Gen Cert.ReferenceIdeal.ValueP Cert.Gnn
open Idealize.ShloMosaic Idealize.ShloMosaic.TcCoe Idealize.ShloMosaic.ValueIdx Idealize.ShloMosaic.StableHlo Idealize.SL.Sem

/-- What the stretch writes that later stretches read, and what it leaves untouched. -/
theorem stretch0 (E : Valuation τ sig (Elt Ideal)) :
    after ((ops (F := Ideal)).take 15) E (Proc.devRef .tc main_v1) = rawSrc (E (Proc.devRef .tc main_arg1))
    ∧ after ((ops (F := Ideal)).take 15) E (Proc.devRef .tc main_v3) = rawDst (E (Proc.devRef .tc main_arg1))
    ∧ after ((ops (F := Ideal)).take 15) E (Proc.devRef .tc main_v12)
      = add128 (mul256x128 (relu256 (add256 (mul128x256 (E (Proc.devRef .tc main_arg0)) (E (Proc.devRef .tc main_arg2)))
          (E (Proc.devRef .tc main_arg3)))) (E (Proc.devRef .tc main_arg4))) (E (Proc.devRef .tc main_arg5))
    ∧ after ((ops (F := Ideal)).take 15) E (Proc.devRef .tc main_arg6) = E (Proc.devRef .tc main_arg6)
    ∧ after ((ops (F := Ideal)).take 15) E (Proc.devRef .tc main_arg7) = E (Proc.devRef .tc main_arg7)
    ∧ after ((ops (F := Ideal)).take 15) E (Proc.devRef .tc main_arg8) = E (Proc.devRef .tc main_arg8)
    ∧ after ((ops (F := Ideal)).take 15) E (Proc.devRef .tc main_arg9) = E (Proc.devRef .tc main_arg9)
    ∧ after ((ops (F := Ideal)).take 15) E (Proc.devRef .tc main_arg10) = E (Proc.devRef .tc main_arg10)
    ∧ after ((ops (F := Ideal)).take 15) E (Proc.devRef .tc main_arg11) = E (Proc.devRef .tc main_arg11) := by
  unfold rawSrc rawDst add128 mul256x128 relu256 add256 mul128x256
  simp only [ops, List.drop_succ_cons, List.drop_zero, List.take_succ_cons, List.take_zero]
  refine ⟨?_, ?_, ?_, ?_, ?_, ?_, ?_, ?_, ?_⟩
  all_goals (after_results_simp <;> rfl)

end Cert.ReferenceIdeal.Whole

end
-- ==== Proof.RefStretch1.lean ====
/-
  The reference's second stretch: the first round of message passing.
-/
import proofs.«109249_j70978629534135_2_alg».proof.Proof.RefStages

set_option maxRecDepth 65536
set_option maxHeartbeats 8000000

noncomputable section

namespace Cert.ReferenceIdeal.Whole

open Cert.ReferenceIdeal Cert.ReferenceIdeal.Gen Cert.ReferenceIdeal.ValueP Cert.Gnn
open Idealize.ShloMosaic Idealize.ShloMosaic.TcCoe Idealize.ShloMosaic.ValueIdx Idealize.ShloMosaic.StableHlo Idealize.SL.Sem

/-- What the stretch writes that later stretches read, and what it leaves untouched. -/
theorem stretch1 (E : Valuation τ sig (Elt Ideal)) :
    after (((ops (F := Ideal)).drop 15).take 24) E (Proc.devRef .tc main_v31)
      = relu128 (add128 (travel (E (Proc.devRef .tc main_v1)) (E (Proc.devRef .tc main_v3))
          (mul128x128 (E (Proc.devRef .tc main_v12)) (roundMatrix0 (E (Proc.devRef .tc main_arg6)))))
          (roundBias0 (E (Proc.devRef .tc main_arg7))))
    ∧ after (((ops (F := Ideal)).drop 15).take 24) E (Proc.devRef .tc main_v1) = E (Proc.devRef .tc main_v1)
    ∧ after (((ops (F := Ideal)).drop 15).take 24) E (Proc.devRef .tc main_v3) = E (Proc.devRef .tc main_v3)
    ∧ after (((ops (F := Ideal)).drop 15).take 24) E (Proc.devRef .tc main_arg6) = E (Proc.devRef .tc main_arg6)
    ∧ after (((ops (F := Ideal)).drop 15).take 24) E (Proc.devRef .tc main_arg7) = E (Proc.devRef .tc main_arg7)
    ∧ after (((ops (F := Ideal)).drop 15).take 24) E (Proc.devRef .tc main_arg8) = E (Proc.devRef .tc main_arg8)
    ∧ after (((ops (F := Ideal)).drop 15).take 24) E (Proc.devRef .tc main_arg9) = E (Proc.devRef .tc main_arg9)
    ∧ after (((ops (F := Ideal)).drop 15).take 24) E (Proc.devRef .tc main_arg10) = E (Proc.devRef .tc main_arg10)
    ∧ after (((ops (F := Ideal)).drop 15).take 24) E (Proc.devRef .tc main_arg11) = E (Proc.devRef .tc main_arg11) := by
  unfold relu128 add128 travel srcOf dstOf mul128x128 roundMatrix0 roundBias0
  simp only [ops, List.drop_succ_cons, List.drop_zero, List.take_succ_cons, List.take_zero]
  refine ⟨?_, ?_, ?_, ?_, ?_, ?_, ?_, ?_, ?_⟩
  all_goals (after_results_simp <;> rfl)

end Cert.ReferenceIdeal.Whole

end
-- ==== Proof.RefStretch2.lean ====
/-
  The reference's third stretch: the second round of message passing.
-/
import proofs.«109249_j70978629534135_2_alg».proof.Proof.RefStages

set_option maxRecDepth 65536
set_option maxHeartbeats 8000000

noncomputable section

namespace Cert.ReferenceIdeal.Whole

open Cert.ReferenceIdeal Cert.ReferenceIdeal.Gen Cert.ReferenceIdeal.ValueP Cert.Gnn
open Idealize.ShloMosaic Idealize.ShloMosaic.TcCoe Idealize.ShloMosaic.ValueIdx Idealize.ShloMosaic.StableHlo Idealize.SL.Sem

/-- What the stretch writes that later stretches read, and what it leaves untouched. -/
theorem stretch2 (E : Valuation τ sig (Elt Ideal)) :
    after (((ops (F := Ideal)).drop 39).take 24) E (Proc.devRef .tc main_v50)
      = relu128 (add128 (travel (E (Proc.devRef .tc main_v1)) (E (Proc.devRef .tc main_v3))
          (mul128x128 (E (Proc.devRef .tc main_v31)) (roundMatrix1 (E (Proc.devRef .tc main_arg6)))))
          (roundBias1 (E (Proc.devRef .tc main_arg7))))
    ∧ after (((ops (F := Ideal)).drop 39).take 24) E (Proc.devRef .tc main_v1) = E (Proc.devRef .tc main_v1)
    ∧ after (((ops (F := Ideal)).drop 39).take 24) E (Proc.devRef .tc main_v3) = E (Proc.devRef .tc main_v3)
    ∧ after (((ops (F := Ideal)).drop 39).take 24) E (Proc.devRef .tc main_arg6) = E (Proc.devRef .tc main_arg6)
    ∧ after (((ops (F := Ideal)).drop 39).take 24) E (Proc.devRef .tc main_arg7) = E (Proc.devRef .tc main_arg7)
    ∧ after (((ops (F := Ideal)).drop 39).take 24) E (Proc.devRef .tc main_arg8) = E (Proc.devRef .tc main_arg8)
    ∧ after (((ops (F := Ideal)).drop 39).take 24) E (Proc.devRef .tc main_arg9) = E (Proc.devRef .tc main_arg9)
    ∧ after (((ops (F := Ideal)).drop 39).take 24) E (Proc.devRef .tc main_arg10) = E (Proc.devRef .tc main_arg10)
    ∧ after (((ops (F := Ideal)).drop 39).take 24) E (Proc.devRef .tc main_arg11) = E (Proc.devRef .tc main_arg11) := by
  unfold relu128 add128 travel srcOf dstOf mul128x128 roundMatrix1 roundBias1
  simp only [ops, List.drop_succ_cons, List.drop_zero, List.take_succ_cons, List.take_zero]
  refine ⟨?_, ?_, ?_, ?_, ?_, ?_, ?_, ?_, ?_⟩
  all_goals (after_results_simp <;> rfl)

end Cert.ReferenceIdeal.Whole

end
-- ==== Proof.RefStretch3.lean ====
/-
  The reference's fourth stretch: the third round of message passing.
-/
import proofs.«109249_j70978629534135_2_alg».proof.Proof.RefStages

set_option maxRecDepth 65536
set_option maxHeartbeats 8000000

noncomputable section

namespace Cert.ReferenceIdeal.Whole

open Cert.ReferenceIdeal Cert.ReferenceIdeal.Gen Cert.ReferenceIdeal.ValueP Cert.Gnn
open Idealize.ShloMosaic Idealize.ShloMosaic.TcCoe Idealize.ShloMosaic.ValueIdx Idealize.ShloMosaic.StableHlo Idealize.SL.Sem

/-- What the stretch writes that later stretches read, and what it leaves untouched. -/
theorem stretch3 (E : Valuation τ sig (Elt Ideal)) :
    after (((ops (F := Ideal)).drop 63).take 24) E (Proc.devRef .tc main_v69)
      = relu128 (add128 (travel (E (Proc.devRef .tc main_v1)) (E (Proc.devRef .tc main_v3))
          (mul128x128 (E (Proc.devRef .tc main_v50)) (roundMatrix2 (E (Proc.devRef .tc main_arg6)))))
          (roundBias2 (E (Proc.devRef .tc main_arg7))))
    ∧ after (((ops (F := Ideal)).drop 63).take 24) E (Proc.devRef .tc main_arg8) = E (Proc.devRef .tc main_arg8)
    ∧ after (((ops (F := Ideal)).drop 63).take 24) E (Proc.devRef .tc main_arg9) = E (Proc.devRef .tc main_arg9)
    ∧ after (((ops (F := Ideal)).drop 63).take 24) E (Proc.devRef .tc main_arg10) = E (Proc.devRef .tc main_arg10)
    ∧ after (((ops (F := Ideal)).drop 63).take 24) E (Proc.devRef .tc main_arg11) = E (Proc.devRef .tc main_arg11) := by
  unfold relu128 add128 travel srcOf dstOf mul128x128 roundMatrix2 roundBias2
  simp only [ops, List.drop_succ_cons, List.drop_zero, List.take_succ_cons, List.take_zero]
  refine ⟨?_, ?_, ?_, ?_, ?_⟩
  all_goals (after_results_simp <;> rfl)

end Cert.ReferenceIdeal.Whole

end
-- ==== Proof.RefStretch4.lean ====
/-
  The reference's last stretch: the decoder's two dense layers and the log-softmax of each row.
-/
import proofs.«109249_j70978629534135_2_alg».proof.Proof.RefStages

set_option maxRecDepth 65536
set_option maxHeartbeats 8000000

noncomputable section

namespace Cert.ReferenceIdeal.Whole

open Cert.ReferenceIdeal Cert.ReferenceIdeal.Gen Cert.ReferenceIdeal.ValueP Cert.Gnn
open Idealize.ShloMosaic Idealize.ShloMosaic.TcCoe Idealize.ShloMosaic.ValueIdx Idealize.ShloMosaic.StableHlo Idealize.SL.Sem

/-- What the stretch writes that later stretches read, and what it leaves untouched. -/
theorem stretch4 (E : Valuation τ sig (Elt Ideal)) :
    after ((ops (F := Ideal)).drop 87) E (Proc.devRef .tc main_v79)
      = logSoftmaxHost (add40 (mul128x40 (relu128 (add128 (mul128x128 (E (Proc.devRef .tc main_v69)) (E (Proc.devRef .tc main_arg8)))
          (E (Proc.devRef .tc main_arg9)))) (E (Proc.devRef .tc main_arg10))) (E (Proc.devRef .tc main_arg11)))
 := by
  unfold logSoftmaxHost shifted rowMaxima add40 mul128x40 relu128 add128 mul128x128
  simp only [ops, List.drop_succ_cons, List.drop_zero, List.take_succ_cons, List.take_zero]
  after_results_simp
  simp only [ofBuf_toBuf]
  rfl

end Cert.ReferenceIdeal.Whole

end
-- ==== Proof.RefArgs.lean ====
/-
  The reference writes none of its arguments: after the whole line each argument buffer holds what it held.
-/
import proofs.«109249_j70978629534135_2_alg».proof.Proof.RefStages

set_option maxRecDepth 65536
set_option maxHeartbeats 16000000

noncomputable section

namespace Cert.ReferenceIdeal.Whole

open Cert.ReferenceIdeal Cert.ReferenceIdeal.Gen Cert.ReferenceIdeal.ValueP Cert.Gnn
open Idealize.ShloMosaic Idealize.ShloMosaic.TcCoe Idealize.ShloMosaic.ValueIdx Idealize.ShloMosaic.StableHlo Idealize.SL.Sem

theorem args_kept (V : Valuation τ sig (Elt Ideal)) :
    after (ops (F := Ideal)) V (Proc.devRef .tc main_arg0) = V (Proc.devRef .tc main_arg0)
    ∧ after (ops (F := Ideal)) V (Proc.devRef .tc main_arg1) = V (Proc.devRef .tc main_arg1)
    ∧ after (ops (F := Ideal)) V (Proc.devRef .tc main_arg2) = V (Proc.devRef .tc main_arg2)
    ∧ after (ops (F := Ideal)) V (Proc.devRef .tc main_arg3) = V (Proc.devRef .tc main_arg3)
    ∧ after (ops (F := Ideal)) V (Proc.devRef .tc main_arg4) = V (Proc.devRef .tc main_arg4)
    ∧ after (ops (F := Ideal)) V (Proc.devRef .tc main_arg5) = V (Proc.devRef .tc main_arg5)
    ∧ after (ops (F := Ideal)) V (Proc.devRef .tc main_arg6) = V (Proc.devRef .tc main_arg6)
    ∧ after (ops (F := Ideal)) V (Proc.devRef .tc main_arg7) = V (Proc.devRef .tc main_arg7)
    ∧ after (ops (F := Ideal)) V (Proc.devRef .tc main_arg8) = V (Proc.devRef .tc main_arg8)
    ∧ after (ops (F := Ideal)) V (Proc.devRef .tc main_arg9) = V (Proc.devRef .tc main_arg9)
    ∧ after (ops (F := Ideal)) V (Proc.devRef .tc main_arg10) = V (Proc.devRef .tc main_arg10)
    ∧ after (ops (F := Ideal)) V (Proc.devRef .tc main_arg11) = V (Proc.devRef .tc main_arg11) := by
  refine ⟨?_, ?_, ?_, ?_, ?_, ?_, ?_, ?_, ?_, ?_, ?_, ?_⟩
  all_goals (after_results_simp <;> rfl)

end Cert.ReferenceIdeal.Whole

end
-- ==== Proof.ReferenceValue.lean ====
/-
  The reference's result as one function of its arguments.

  Each of the host's stages is, entry by entry, the layer of the same name: a `dot_general` of plain dimension
  numbers is rows times a matrix; two `broadcast_in_dim`s and an `add` put a bias on every row; a maximum with a zero
  array is the rectifier; a gather and an accumulating scatter into a zero array are a round's traffic; a row
  reduction by maximum from `-∞`, an exponential, a row sum and a logarithm are the log-softmax. With the five
  stretches read one after the other, the result buffer after the run is: the encoder of the input features, three
  rounds of matrix–travel–bias–rectify, the decoder's two dense layers and the log-softmax of each row.
-/
import proofs.«109249_j70978629534135_2_alg».proof.Proof.RefStretch0
import proofs.«109249_j70978629534135_2_alg».proof.Proof.RefStretch1
import proofs.«109249_j70978629534135_2_alg».proof.Proof.RefStretch2
import proofs.«109249_j70978629534135_2_alg».proof.Proof.RefStretch3
import proofs.«109249_j70978629534135_2_alg».proof.Proof.RefStretch4
import proofs.«109249_j70978629534135_2_alg».proof.Proof.RefArgs

set_option maxRecDepth 65536
set_option maxHeartbeats 4000000

noncomputable section

open scoped BigOperators

namespace Cert.ReferenceIdeal.Whole

open Cert.ReferenceIdeal Cert.ReferenceIdeal.Gen Cert.ReferenceIdeal.ValueP Cert.Gnn
open Idealize.ShloMosaic Idealize.ShloMosaic.TcCoe Idealize.ShloMosaic.ValueIdx Idealize.ShloMosaic.StableHlo Idealize.SL.Sem

/-! ## The host's stages are the layers -/

theorem dot_128_256 : dot_S100000x128_S128x256_S100000x256_1_0_0_1_n_n = DotDims.plain 100000 128 256 := rfl
theorem dot_256_128 : dot_S100000x256_S256x128_S100000x128_1_0_0_1_n_n = DotDims.plain 100000 256 128 := rfl
theorem dot_128_128 : dot_S100000x128_S128x128_S100000x128_1_0_0_1_n_n = DotDims.plain 100000 128 128 := rfl
theorem dot_128_40 : dot_S100000x128_S128x40_S100000x40_1_0_0_1_n_n = DotDims.plain 100000 128 40 := rfl

theorem mul128x256_eq (a : FVec Ideal S100000x128 .f32) (w : FVec Ideal S128x256 .f32) :
    mul128x256 a w = rowsMul (N := 100000) (K := 128) (J := 256) a w := by
  funext i
  obtain ⟨n, j, rfl⟩ : ∃ (n : Fin 100000) (j : Fin 256), i = ix2 n j := ⟨i 0, i 1, eq_ix2 i⟩
  unfold mul128x256 rowsMul
  rw [dot_128_256, StackMember.dotGeneral_plain_apply]
theorem mul256x128_eq (a : FVec Ideal S100000x256 .f32) (w : FVec Ideal S256x128 .f32) :
    mul256x128 a w = rowsMul (N := 100000) (K := 256) (J := 128) a w := by
  funext i
  obtain ⟨n, j, rfl⟩ : ∃ (n : Fin 100000) (j : Fin 128), i = ix2 n j := ⟨i 0, i 1, eq_ix2 i⟩
  unfold mul256x128 rowsMul
  rw [dot_256_128, StackMember.dotGeneral_plain_apply]
theorem mul128x128_eq (a : FVec Ideal S100000x128 .f32) (w : FVec Ideal S128x128 .f32) :
    mul128x128 a w = rowsMul (N := 100000) (K := 128) (J := 128) a w := by
  funext i
  obtain ⟨n, j, rfl⟩ : ∃ (n : Fin 100000) (j : Fin 128), i = ix2 n j := ⟨i 0, i 1, eq_ix2 i⟩
  unfold mul128x128 rowsMul
  rw [dot_128_128, StackMember.dotGeneral_plain_apply]
theorem mul128x40_eq (a : FVec Ideal S100000x128 .f32) (w : FVec Ideal S128x40 .f32) :
    mul128x40 a w = rowsMul (N := 100000) (K := 128) (J := 40) a w := by
  funext i
  obtain ⟨n, j, rfl⟩ : ∃ (n : Fin 100000) (j : Fin 40), i = ix2 n j := ⟨i 0, i 1, eq_ix2 i⟩
  unfold mul128x40 rowsMul
  rw [dot_128_40, StackMember.dotGeneral_plain_apply]

theorem add256_eq (a : FVec Ideal S100000x256 .f32) (b : FVec Ideal S256 .f32) :
    add256 a b = addRow (N := 100000) (J := 256) a b := by
  funext i
  obtain ⟨n, j, rfl⟩ : ∃ (n : Fin 100000) (j : Fin 256), i = ix2 n j := ⟨i 0, i 1, eq_ix2 i⟩
  unfold add256 addRow
  rw [addf_apply, bcast_row_rows_apply, bcast_vec_row_apply]
theorem add128_eq (a : FVec Ideal S100000x128 .f32) (b : FVec Ideal S128 .f32) :
    add128 a b = addRow (N := 100000) (J := 128) a b := by
  funext i
  obtain ⟨n, j, rfl⟩ : ∃ (n : Fin 100000) (j : Fin 128), i = ix2 n j := ⟨i 0, i 1, eq_ix2 i⟩
  unfold add128 addRow
  rw [addf_apply, bcast_row_rows_apply, bcast_vec_row_apply]
theorem add40_eq (a : FVec Ideal S100000x40 .f32) (b : FVec Ideal S40 .f32) :
    add40 a b = addRow (N := 100000) (J := 40) a b := by
  funext i
  obtain ⟨n, j, rfl⟩ : ∃ (n : Fin 100000) (j : Fin 40), i = ix2 n j := ⟨i 0, i 1, eq_ix2 i⟩
  unfold add40 addRow
  rw [addf_apply, bcast_row_rows_apply, bcast_vec_row_apply]

theorem relu256_eq (a : FVec Ideal S100000x256 .f32) : relu256 a = relu a := by
  funext i; unfold relu256 relu
  rw [maximumf_apply, bcast_scalar_apply]; exact congrArg (max (a i)) Ideal.ofBits_zero_f32
theorem relu128_eq (a : FVec Ideal S100000x128 .f32) : relu128 a = relu a := by
  funext i; unfold relu128 relu
  rw [maximumf_apply, bcast_scalar_apply]; exact congrArg (max (a i)) Ideal.ofBits_zero_f32

/-- The host's traffic is the layers module's: a zero array is zero everywhere. -/
theorem travel_eq (v1 v3 : (⟨S600000, .i32⟩ : BufTy).Contents (Elt Ideal)) (h : (⟨S100000x128, .f32⟩ : BufTy).Contents (Elt Ideal)) :
    travel v1 v3 h = aggregate gather_S100000x128_S600000x1_S600000x128_1_0_n_n_0_1_1128_wf scatter_S100000x128_S600000x1_S600000x128_1_0_0_1_wf (srcOf v1) (dstOf v3) h := by
  have hz : (broadcastInDim S100000x128 ![] bcast_S_S100000x128 (constant (F := Ideal) S_ .f32 0x00000000#32)
      : S100000x128.Idx → EReal) = fun _ => 0 := by
    funext i; rw [bcast_scalar_apply]; exact Ideal.ofBits_zero_f32
  unfold travel aggregate
  show Ideal.hostScatterAdd scatter_S100000x128_S600000x1_S600000x128_1_0_0_1
      (broadcastInDim S100000x128 ![] bcast_S_S100000x128 (constant (F := Ideal) S_ .f32 0x00000000#32)) (dstOf v3)
      (Host.gather gather_S100000x128_S600000x1_S600000x128_1_0_n_n_0_1_1128 h (srcOf v1)) = _
  rw [hz]
  rfl

theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

theorem rowMaxima_apply (z : FVec Ideal S100000x40 .f32) (n : Fin 100000) :
    rowMaxima z (ix1 n) = rowMax fun k : Fin 40 => z (ix2 n k) := by
  unfold rowMaxima
  rw [maximumf_apply, bcast_scalar_apply, hostReduce_max_rows z _ (by decide) _ n]
  exact max_negInf _

theorem shifted_apply (z : FVec Ideal S100000x40 .f32) (n : Fin 100000) (j : Fin 40) :
    shifted z (ix2 n j) = z (ix2 n j) - rowMax fun k : Fin 40 => z (ix2 n k) := by
  unfold shifted
  rw [subf_apply, bcast_col_cols_apply, bcast_vec_col_apply, rowMaxima_apply]

theorem logSoftmaxHost_eq (z : FVec Ideal S100000x40 .f32) : logSoftmaxHost z = logSoftmax (N := 100000) (J := 40) z := by
  funext i
  obtain ⟨n, j, rfl⟩ : ∃ (n : Fin 100000) (j : Fin 40), i = ix2 n j := ⟨i 0, i 1, eq_ix2 i⟩
  unfold logSoftmaxHost logSoftmax
  rw [subf_apply, bcast_col_cols_apply, hostLog_apply, bcast_vec_col_apply, hostReduceAdd_rows _ _ (by decide) _ n, shifted_apply]
  simp only [hostExp_apply, shifted_apply]

/-! ## From the launch to the return -/

/-- THE REFERENCE'S RESULT, as a function of the twelve argument arrays. -/
def resultOf (x0 : FVec Ideal S100000x128 .f32) (x1 : (⟨S2x600000, .i32⟩ : BufTy).Contents (Elt Ideal))
    (x2 : FVec Ideal S128x256 .f32) (x3 : FVec Ideal S256 .f32) (x4 : FVec Ideal S256x128 .f32) (x5 : FVec Ideal S128 .f32)
    (x6 : FVec Ideal S3x128x128 .f32) (x7 : FVec Ideal S3x128 .f32) (x8 : FVec Ideal S128x128 .f32) (x9 : FVec Ideal S128 .f32)
    (x10 : FVec Ideal S128x40 .f32) (x11 : FVec Ideal S40 .f32) : S100000x40.Idx → EReal :=
  logSoftmax (N := 100000) (J := 40)
    (dense (N := 100000) (K := 128) (J := 40)
      (relu (dense (N := 100000) (K := 128) (J := 128)
        (roundReference gather_S100000x128_S600000x1_S600000x128_1_0_n_n_0_1_1128_wf scatter_S100000x128_S600000x1_S600000x128_1_0_0_1_wf (srcOf (rawSrc x1)) (dstOf (rawDst x1))
          (roundReference gather_S100000x128_S600000x1_S600000x128_1_0_n_n_0_1_1128_wf scatter_S100000x128_S600000x1_S600000x128_1_0_0_1_wf (srcOf (rawSrc x1)) (dstOf (rawDst x1))
            (roundReference gather_S100000x128_S600000x1_S600000x128_1_0_n_n_0_1_1128_wf scatter_S100000x128_S600000x1_S600000x128_1_0_0_1_wf (srcOf (rawSrc x1)) (dstOf (rawDst x1))
              (dense (N := 100000) (K := 256) (J := 128) (relu (dense (N := 100000) (K := 128) (J := 256) x0 x2 x3)) x4 x5)
              (roundMatrix0 x6) (roundBias0 x7))
            (roundMatrix1 x6) (roundBias1 x7))
          (roundMatrix2 x6) (roundBias2 x7))
        x8 x9))
      x10 x11)

/-- The result buffer after the whole line is `resultOf` of the argument buffers. -/
theorem reference_result (V : Valuation τ sig (Elt Ideal)) :
    after (ops (F := Ideal)) V (Proc.devRef .tc main_v79)
      = resultOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11)) := by
  rw [after_ops, stretch4]
  obtain ⟨h69, d8, d9, d10, d11⟩ := stretch3 (after (((ops (F := Ideal)).drop 39).take 24) (after (((ops (F := Ideal)).drop 15).take 24) (after ((ops (F := Ideal)).take 15) V)))
  rw [h69, d8, d9, d10, d11]
  obtain ⟨h50, c1', c3', c6, c7, c8, c9, c10, c11⟩ := stretch2 (after (((ops (F := Ideal)).drop 15).take 24) (after ((ops (F := Ideal)).take 15) V))
  rw [h50, c1', c3', c6, c7, c8, c9, c10, c11]
  obtain ⟨h31, b1, b3, b6, b7, b8, b9, b10, b11⟩ := stretch1 (after ((ops (F := Ideal)).take 15) V)
  rw [h31, b1, b3, b6, b7, b8, b9, b10, b11]
  obtain ⟨a1, a3, h12, a6, a7, a8, a9, a10, a11⟩ := stretch0 V
  rw [a1, a3, h12, a6, a7, a8, a9, a10, a11]
  simp only [logSoftmaxHost_eq, add40_eq, add128_eq, add256_eq, mul128x40_eq, mul128x128_eq, mul256x128_eq, mul128x256_eq,
    relu128_eq, relu256_eq, travel_eq]
  rfl

/-- THE REFERENCE'S RUN, READ: every weakly fair execution terminates with the result buffer at `resultOf` of the arguments
    and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79)
        = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ?_) (ValueP.run (F := Ideal) m ρ)
  obtain ⟨k0, k1, k2, k3, k4, k5, k6, k7, k8, k9, k10, k11⟩ := args_kept (launchContents m c)
  exact ⟨(h c main_v79).trans (reference_result (launchContents m c)),
    (h c main_arg0).trans k0,
    (h c main_arg1).trans k1,
    (h c main_arg2).trans k2,
    (h c main_arg3).trans k3,
    (h c main_arg4).trans k4,
    (h c main_arg5).trans k5,
    (h c main_arg6).trans k6,
    (h c main_arg7).trans k7,
    (h c main_arg8).trans k8,
    (h c main_arg9).trans k9,
    (h c main_arg10).trans k10,
    (h c main_arg11).trans k11⟩

end Cert.ReferenceIdeal.Whole

end
-- ==== Proof.Finite.lean ====
/-
  Finite inputs are real.

  The precondition says of each float argument that every entry's absolute value is below `+∞`, all these facts
  and-ed into one bit. An extended real whose absolute value is below `+∞` is neither infinity, so it is a real
  number. Read back for the seven arrays that enter the rounds of message passing — the input features, the encoder's
  two matrices and two biases, the stacked round matrices and the stacked round biases — this gives the hypothesis the
  law of a round needs.
-/
import proofs.«109249_j70978629534135_2_alg».proof.Pre_finite_inputs
import proofs.«109249_j70978629534135_2_alg».proof.Proof.Gen.Pre_finite_inputs
import proofs.«109249_j70978629534135_2_alg».proof.Proof.Layers
import Idealize.ShloMosaic.Lib.ReduceAll

set_option maxRecDepth 16384

noncomputable section

namespace Cert.Gnn

open Idealize.ShloMosaic Idealize.ShloMosaic.ValueIdx

/-- An extended real whose absolute value compares below `+∞` is a real number. -/
theorem real_of_abs_lt_inf (x : EReal)
    (h : FloatOps.cmpf (F := Ideal) (φ := .f32) .olt (FloatOps.hostAbsf (F := Ideal) (φ := .f32) x) (Ideal.ofBits .f32 0x7F800000#32) = 1#1) :
    IsReal x := by
  have hinf : Ideal.ofBits .f32 0x7F800000#32 = (⊤ : EReal) := by simp [Ideal.ofBits, Ideal.ieee]
  rw [Ideal.cmpf_def, Ideal.hostAbsf_def, Ideal.absf_def, hinf] at h
  induction x using EReal.rec with
  | bot => simp [Ideal.cmp] at h
  | top => simp [Ideal.cmp] at h
  | coe r => exact ⟨r, rfl⟩

instance : Subsingleton (⟨0, ![]⟩ : Shape).Idx := ⟨fun _ _ => funext fun d => d.elim0⟩

/-- `jnp.all(|x| < inf)` reads 1: every entry of `x` is real. -/
theorem allReal_of_all {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (h : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1) : AllReal x := fun i => by
  have h1 : FloatOps.cmpf (F := Ideal) (φ := .f32) .olt (FloatOps.hostAbsf (x i))
      ((broadcastInDim s ![] hb (constant (F := Ideal) (⟨0, ![]⟩ : Shape) .f32 0x7F800000#32)) i) = 1#1 :=
    Host.reduce_andi_all _ _ hr hu ix0 h i
  rw [bcast_scalar_apply] at h1
  exact real_of_abs_lt_inf (x i) h1

/-- A reshape only moves entries: it keeps them real. -/
theorem AllReal.shapeCast {s t : Shape} {x : s.Idx → EReal} (hx : AllReal x) (h : s.ShapeCasts t) :
    AllReal (Idealize.ShloMosaic.shapeCast t x h) := fun _ => by
  unfold Idealize.ShloMosaic.shapeCast; exact hx _

/-- A slice only picks entries: it keeps them real. -/
theorem AllReal.slice {s t : Shape} {x : s.Idx → EReal} (hx : AllReal x) (off : Fin s.rank → Nat) (h : s.Slices off t) :
    AllReal (Idealize.ShloMosaic.extractStridedSlice t off x h) := fun _ => by
  unfold Idealize.ShloMosaic.extractStridedSlice; exact hx _

open Cert.Pre_finite_inputs in
/-- The precondition, read back for the arrays the rounds depend on. -/
theorem inputs_real (x0 : FVec Ideal S100000x128 .f32) (x1 : IVec S2x600000 32) (x2 : FVec Ideal S128x256 .f32)
    (x3 : FVec Ideal S256 .f32) (x4 : FVec Ideal S256x128 .f32) (x5 : FVec Ideal S128 .f32) (x6 : FVec Ideal S3x128x128 .f32)
    (x7 : FVec Ideal S3x128 .f32) (x8 : FVec Ideal S128x128 .f32) (x9 : FVec Ideal S128 .f32) (x10 : FVec Ideal S128x40 .f32)
    (x11 : FVec Ideal S40 .f32)
    (h : Cert.Pre_finite_inputs.fn (F := Ideal) x0 x1 x2 x3 x4 x5 x6 x7 x8 x9 x10 x11 = fun _ => 1#1) :
    AllReal x0 ∧ AllReal x2 ∧ AllReal x3 ∧ AllReal x4 ∧ AllReal x5 ∧ AllReal x6 ∧ AllReal x7 := by
  have e := congrFun h ix0
  unfold Cert.Pre_finite_inputs.fn Cert.Pre_finite_inputs.fn_part1 Cert.Pre_finite_inputs.fn_part2
    Cert.Pre_finite_inputs.fn_part3 at e
  dsimp only at e
  obtain ⟨e48, -⟩ := IntOp.andi_eq_one.1 e
  obtain ⟨e43, -⟩ := IntOp.andi_eq_one.1 e48
  obtain ⟨e38, -⟩ := IntOp.andi_eq_one.1 e43
  obtain ⟨e33, -⟩ := IntOp.andi_eq_one.1 e38
  obtain ⟨e28, e32⟩ := IntOp.andi_eq_one.1 e33
  obtain ⟨e23, e27⟩ := IntOp.andi_eq_one.1 e28
  obtain ⟨e18, e22⟩ := IntOp.andi_eq_one.1 e23
  obtain ⟨e13, e17⟩ := IntOp.andi_eq_one.1 e18
  obtain ⟨e8, e12⟩ := IntOp.andi_eq_one.1 e13
  obtain ⟨e3, e7⟩ := IntOp.andi_eq_one.1 e8
  exact ⟨allReal_of_all x0 _ _ _ e3, allReal_of_all x2 _ _ _ e7, allReal_of_all x3 _ _ _ e12, allReal_of_all x4 _ _ _ e17,
    allReal_of_all x5 _ _ _ e22, allReal_of_all x6 _ _ _ e27, allReal_of_all x7 _ _ _ e32⟩

end Cert.Gnn

end
-- ==== Proof.lean ====
/-
  The certificate of a graph network's forward pass: a Pallas kernel against its jnp reference.

  Both programs compute, for 100000 nodes and 600000 edges, an encoder of two dense layers, three rounds of message
  passing, a decoder of two dense layers and the log-softmax of each node's 40 logits. The kernel runs the dense
  stages as four pipelined regions over blocks of 4000 nodes and leaves the traffic along the edges (a gather of
  source rows, summed into destination rows) to host operations between them; the reference is one straight line of
  host operations. They differ in one place: in each round the reference multiplies the node features by the
  round's matrix BEFORE the rows travel along the edges, the kernel AFTER.

  At the ideal values a change of float format is the identity and every product and sum is exact, so region by
  region and stage by stage the two programs are the same functions of their arguments, and the one difference is
  the law  (sum over arriving edges of rows) · W  =  sum over arriving edges of (row · W).  On the extended reals that
  law needs the rows and the matrix to be real numbers; the precondition gives finite inputs, and sums, products and
  maxima of reals are reals, so every array that enters a round is real. An edge whose index is outside the node
  range is clamped by the gather and dropped by the scatter in both programs alike, so nothing is asked of the
  indices.

  The modules: RealSums (reals in the extended reals, the exchange of sums), EdgeRows (which row an edge reads and
  writes), Layout (small arrays read at an index), Layers (the network's layers and the law of a round), Bodies (what
  each kernel body stores), Encoder / Round1 / Round2 / Decoder (each region's array from its blocks), KernelRun and
  KernelValue (the kernel's run and its result as one function of the arguments), ReferenceRun, RefStages,
  RefStretch0–4, RefArgs and ReferenceValue (the same for the reference), Finite (finite inputs are real). The ideal
  pass rewrote nothing, so `preserves` has no conjunct.
-/
import proofs.«109249_j70978629534135_2_alg».proof.Defs
import proofs.«109249_j70978629534135_2_alg».proof.Proof.Gen.Kernel
import proofs.«109249_j70978629534135_2_alg».proof.Proof.Gen.Kernel.Frame
import proofs.«109249_j70978629534135_2_alg».proof.Proof.Gen.KernelIdeal
import proofs.«109249_j70978629534135_2_alg».proof.Proof.Gen.KernelIdeal.Frame
import proofs.«109249_j70978629534135_2_alg».proof.Proof.Gen.ReferenceIdeal
import proofs.«109249_j70978629534135_2_alg».proof.Proof.Gen.Pre_finite_inputs
import proofs.«109249_j70978629534135_2_alg».proof.Proof.KernelValue
import proofs.«109249_j70978629534135_2_alg».proof.Proof.ReferenceValue
import proofs.«109249_j70978629534135_2_alg».proof.Proof.Finite
import Idealize.ShloMosaic.Adequacy
import Idealize.ShloMosaic.Init

set_option maxRecDepth 65536
set_option maxHeartbeats 4000000

noncomputable section

namespace Cert.Proof

open Idealize.ShloMosaic Idealize.SL.Sem Cert.Gnn

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Whole.run m ρ)

theorem preserves : Cert.preserves_Kernel_KernelIdeal := trivial

/-! ## The two results are one function of the arguments -/

/-- Under the precondition the reference's result, at the kernel's arguments, is the kernel's: three times the law of a
    round, from the encoder's real output through real matrices and biases. -/
theorem results_agree (m : (ℓ : Loc Cert.KernelIdeal.nD Cert.KernelIdeal.τ Cert.KernelIdeal.sig) → Buf (Elt Ideal) ℓ) (hpre : Cert.Pre_KernelIdeal m)
    (c : Dev Cert.KernelIdeal.nD) :
    Cert.ReferenceIdeal.Whole.resultOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      = Cert.KernelIdeal.Whole.result m c := by
  obtain ⟨h0, h2, h3, h4, h5, h6, h7⟩ := inputs_real _ _ _ _ _ _ _ _ _ _ _ _ (hpre c)
  have henc : AllReal (Cert.KernelIdeal.Whole.encoded m c) := dense_real (relu_real (dense_real h0 h2 h3)) h4 h5
  have hW0 : AllReal (Cert.KernelIdeal.Whole.roundMatrix0 (m ((c.tc : Thread Cert.KernelIdeal.nD Cert.KernelIdeal.τ).loc Cert.KernelIdeal.main_arg6))) := (h6.slice _ _).shapeCast _
  have hW1 : AllReal (Cert.KernelIdeal.Whole.roundMatrix1 (m ((c.tc : Thread Cert.KernelIdeal.nD Cert.KernelIdeal.τ).loc Cert.KernelIdeal.main_arg6))) := (h6.slice _ _).shapeCast _
  have hW2 : AllReal (Cert.KernelIdeal.Whole.roundMatrix2 (m ((c.tc : Thread Cert.KernelIdeal.nD Cert.KernelIdeal.τ).loc Cert.KernelIdeal.main_arg6))) := (h6.slice _ _).shapeCast _
  have hb0 : AllReal (Cert.KernelIdeal.Whole.roundBias0 (m ((c.tc : Thread Cert.KernelIdeal.nD Cert.KernelIdeal.τ).loc Cert.KernelIdeal.main_arg7))) := (h7.slice _ _).shapeCast _
  have hb1 : AllReal (Cert.KernelIdeal.Whole.roundBias1 (m ((c.tc : Thread Cert.KernelIdeal.nD Cert.KernelIdeal.τ).loc Cert.KernelIdeal.main_arg7))) := (h7.slice _ _).shapeCast _
  unfold Cert.KernelIdeal.Whole.result Cert.KernelIdeal.Whole.hidden2 Cert.KernelIdeal.Whole.hidden1
  rw [three_rounds_eq _ _ _ _ (Cert.KernelIdeal.Whole.encoded m c) _ _ _ _ _ _ henc hW0 hW1 hW2 hb0 hb1]
  rfl

/-! ## The claims -/

/-- At the ideal values, from memories that agree on the arguments, both programs run and end with equal results. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun r h c => ⟨(h c).1.trans ?_, (h c).2⟩) (Cert.ReferenceIdeal.Whole.run m' ρ')
  obtain ⟨a0, a1, a2, a3, a4, a5, a6, a7, a8, a9, a10, a11⟩ := hagree c
  rw [a0, a1, a2, a3, a4, a5, a6, a7, a8, a9, a10, a11]
  exact results_agree m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
